-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x93 : Shape := ⟨2, ![262144, 93]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S286x128 : Shape := ⟨2, ![286, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S_ : Shape := ⟨0, ![]⟩

class Facts : Prop where
  bcast_S_S262144x93 : S_.BroadcastsInDim S262144x93 (![] : Fin 0 → Fin S262144x93.rank)
  reducesTo_S262144x93_S_d0_1 : S262144x93.ReducesTo [0, 1] S_
  h_S_ : 0 < S_.numel
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S286x128 : S_.BroadcastsInDim S286x128 (![] : Fin 0 → Fin S286x128.rank)
  reducesTo_S286x128_S_d0_1 : S286x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_v118 : IVec S_ 1) (main_v119 : FVec F S3 .f32) : IVec S_ 1 :=
  let main_cst_46 : FVec F S_ .f32 := constant S_ .f32 0x7F800000#32
  let main_v120 : FVec F S3 .f32 := broadcastInDim S3 ![] bcast_S_S3 main_cst_46
  let main_v121 : IVec S3 1 := cmpf .olt main_v119 main_v120
  let main_c_47 : IVec S_ 1 := constantI S_ 1 1#1
  let main_v122 : IVec S_ 1 := (fun x v => Host.reduce IntOp.andi x v reducesTo_S3_S_d0 h_S_) main_v121 main_c_47
  let main_v123 : IVec S_ 1 := andi main_v118 main_v122
  main_v123

def fn_part6 {F : FTy → Type} [FloatOps F] (main_arg21 : FVec F S256x1 .f32) (main_arg22 : FVec F S1 .f32) (main_arg23 : FVec F S128x3 .f32) (main_arg24 : FVec F S3 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x1 .f32 := Host.absf main_arg21
  let main_cst_40 : FVec F S_ .f32 := constant S_ .f32 0x7F800000#32
  let main_v105 : FVec F S256x1 .f32 := broadcastInDim S256x1 ![] bcast_S_S256x1 main_cst_40
  let main_v106 : IVec S256x1 1 := cmpf .olt main_v104 main_v105
  let main_c_41 : IVec S_ 1 := constantI S_ 1 1#1
  let main_v107 : IVec S_ 1 := (fun x v => Host.reduce IntOp.andi x v reducesTo_S256x1_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S128x3 .f32 := Host.absf main_arg23
  let main_cst_44 : FVec F S_ .f32 := constant S_ .f32 0x7F800000#32
  let main_v115 : FVec F S128x3 .f32 := broadcastInDim S128x3 ![] bcast_S_S128x3 main_cst_44
  let main_v116 : IVec S128x3 1 := cmpf .olt main_v114 main_v115
  let main_c_45 : IVec S_ 1 := constantI S_ 1 1#1
  let main_v117 : IVec S_ 1 := (fun x v => Host.reduce IntOp.andi x v reducesTo_S128x3_S_d0_1 h_S_) main_v116 main_c_45
  let main_v118 : IVec S_ 1 := andi main_v113 main_v117
  let main_v119 : FVec F S3 .f32 := Host.absf main_arg24
  fn_part7 (F := F) main_v118 main_v119

def fn_part5 {F : FTy → Type} [FloatOps F] (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S286x128 .f32 := Host.absf main_arg19
  let main_cst_36 : FVec F S_ .f32 := constant S_ .f32 0x7F800000#32
  let main_v95 : FVec F S286x128 .f32 := broadcastInDim S286x128 ![] bcast_S_S286x128 main_cst_36
  let main_v96 : IVec S286x128 1 := cmpf .olt main_v94 main_v95
  let main_c_37 : IVec S_ 1 := constantI S_ 1 1#1
  let main_v97 : IVec S_ 1 := (fun x v => Host.reduce IntOp.andi x v reducesTo_S286x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S319x256 .f32 := Host.absf main_arg9
  let main_cst_16 : FVec F S_ .f32 := constant S_ .f32 0x7F800000#32
  let main_v45 : FVec F S319x256 .f32 := broadcastInDim S319x256 ![] bcast_S_S319x256 main_cst_16
  let main_v46 : IVec S319x256 1 := cmpf .olt main_v44 main_v45
  let main_c_17 : IVec S_ 1 := constantI S_ 1 1#1
  let main_v47 : IVec S_ 1 := (fun x v => Host.reduce IntOp.andi x v reducesTo_S319x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S262144x93 .f32) (main_arg1 : FVec F S63x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) : IVec S_ 1 :=
  let main_v0 : FVec F S262144x93 .f32 := Host.absf main_arg0
  let main_cst : FVec F S_ .f32 := constant S_ .f32 0x7F800000#32
  let main_v1 : FVec F S262144x93 .f32 := broadcastInDim S262144x93 ![] bcast_S_S262144x93 main_cst
  let main_v2 : IVec S262144x93 1 := cmpf .olt main_v0 main_v1
  let main_c : IVec S_ 1 := constantI S_ 1 1#1
  let main_v3 : IVec S_ 1 := (fun x v => Host.reduce IntOp.andi x v reducesTo_S262144x93_S_d0_1 h_S_) main_v2 main_c
  let main_v4 : FVec F S63x256 .f32 := Host.absf main_arg1
  let main_cst_0 : FVec F S_ .f32 := constant S_ .f32 0x7F800000#32
  let main_v5 : FVec F S63x256 .f32 := broadcastInDim S63x256 ![] bcast_S_S63x256 main_cst_0
  let main_v6 : IVec S63x256 1 := cmpf .olt main_v4 main_v5
  let main_c_1 : IVec S_ 1 := constantI S_ 1 1#1
  let main_v7 : IVec S_ 1 := (fun x v => Host.reduce IntOp.andi x v reducesTo_S63x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S262144x93 : Shape := ⟨2, ![262144, 93]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S286x128 : Shape := ⟨2, ![286, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S_ : Shape := ⟨0, ![]⟩
abbrev S93x256 : Shape := ⟨2, ![93, 256]⟩
abbrev S256x128 : Shape := ⟨2, ![256, 128]⟩
abbrev S30x128 : Shape := ⟨2, ![30, 128]⟩
abbrev S93x128 : Shape := ⟨2, ![93, 128]⟩
abbrev S256x257 : Shape := ⟨2, ![256, 257]⟩
abbrev S257 : Shape := ⟨1, ![257]⟩
abbrev S262144x4 : Shape := ⟨2, ![262144, 4]⟩
abbrev S2048x93 : Shape := ⟨2, ![2048, 93]⟩
abbrev S2048x4 : Shape := ⟨2, ![2048, 4]⟩
abbrev S2048x256 : Shape := ⟨2, ![2048, 256]⟩
abbrev S1x256 : Shape := ⟨2, ![1, 256]⟩
abbrev S2048x257 : Shape := ⟨2, ![2048, 257]⟩
abbrev S1x257 : Shape := ⟨2, ![1, 257]⟩
abbrev S2048x1 : Shape := ⟨2, ![2048, 1]⟩
abbrev S2048x128 : Shape := ⟨2, ![2048, 128]⟩
abbrev S1x128 : Shape := ⟨2, ![1, 128]⟩
abbrev S2048x3 : Shape := ⟨2, ![2048, 3]⟩
abbrev S1x3 : Shape := ⟨2, ![1, 3]⟩

abbrev nBuf : Space → Nat
  | .hbm => 54
  | .vmem => 28
  | .smem => 0
  | _ => 0

abbrev bufTy : (tb : Table) → Fin (tcTables nBuf tb) → BufTy
  | .hbm, ⟨0, _⟩ => ⟨S262144x93, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S286x128, .f32⟩
  | .hbm, ⟨20, _⟩ => ⟨S128, .f32⟩
  | .hbm, ⟨21, _⟩ => ⟨S256x1, .f32⟩
  | .hbm, ⟨22, _⟩ => ⟨S1, .f32⟩
  | .hbm, ⟨23, _⟩ => ⟨S128x3, .f32⟩
  | .hbm, ⟨24, _⟩ => ⟨S3, .f32⟩
  | .hbm, ⟨25, _⟩ => ⟨S_, .i32⟩
  | .hbm, ⟨26, _⟩ => ⟨S_, .f32⟩
  | .hbm, ⟨27, _⟩ => ⟨S93x256, .f32⟩
  | .hbm, ⟨28, _⟩ => ⟨S93x256, .bf16⟩
  | .hbm, ⟨29, _⟩ => ⟨S63x256, .f32⟩
  | .hbm, ⟨30, _⟩ => ⟨S_, .i32⟩
  | .hbm, ⟨31, _⟩ => ⟨S_, .f32⟩
  | .hbm, ⟨32, _⟩ => ⟨S93x256, .f32⟩
  | .hbm, ⟨33, _⟩ => ⟨S93x256, .bf16⟩
  | .hbm, ⟨34, _⟩ => ⟨S256x256, .f32⟩
  | .hbm, ⟨35, _⟩ => ⟨S256x256, .bf16⟩
  | .hbm, ⟨36, _⟩ => ⟨S256x128, .f32⟩
  | .hbm, ⟨37, _⟩ => ⟨S256x128, .bf16⟩
  | .hbm, ⟨38, _⟩ => ⟨S30x128, .f32⟩
  | .hbm, ⟨39, _⟩ => ⟨S_, .i32⟩
  | .hbm, ⟨40, _⟩ => ⟨S_, .f32⟩
  | .hbm, ⟨41, _⟩ => ⟨S93x128, .f32⟩
  | .hbm, ⟨42, _⟩ => ⟨S93x128, .bf16⟩
  | .hbm, ⟨43, _⟩ => ⟨S256x257, .f32⟩
  | .hbm, ⟨44, _⟩ => ⟨S256x257, .bf16⟩
  | .hbm, ⟨45, _⟩ => ⟨S257, .f32⟩
  | .hbm, ⟨46, _⟩ => ⟨S256x256, .bf16⟩
  | .hbm, ⟨47, _⟩ => ⟨S256x256, .bf16⟩
  | .hbm, ⟨48, _⟩ => ⟨S256x256, .bf16⟩
  | .hbm, ⟨49, _⟩ => ⟨S256x256, .bf16⟩
  | .hbm, ⟨50, _⟩ => ⟨S256x256, .bf16⟩
  | .hbm, ⟨51, _⟩ => ⟨S256x256, .bf16⟩
  | .hbm, ⟨52, _⟩ => ⟨S128x3, .bf16⟩
  | .hbm, ⟨53, _⟩ => ⟨S262144x4, .f32⟩
  | .local _ .vmem, ⟨0, _⟩ => ⟨S2048x93, .f32⟩
  | .local _ .vmem, ⟨1, _⟩ => ⟨S2048x93, .f32⟩
  | .local _ .vmem, ⟨2, _⟩ => ⟨S93x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S93x256, .bf16⟩
  | .local _ .vmem, ⟨11, _⟩ => ⟨S256x256, .bf16⟩
  | .local _ .vmem, ⟨12, _⟩ => ⟨S256, .f32⟩
  | .local _ .vmem, ⟨13, _⟩ => ⟨S256x256, .bf16⟩
  | .local _ .vmem, ⟨14, _⟩ => ⟨S256, .f32⟩
  | .local _ .vmem, ⟨15, _⟩ => ⟨S256x256, .bf16⟩
  | .local _ .vmem, ⟨16, _⟩ => ⟨S256, .f32⟩
  | .local _ .vmem, ⟨17, _⟩ => ⟨S256x256, .bf16⟩
  | .local _ .vmem, ⟨18, _⟩ => ⟨S256, .f32⟩
  | .local _ .vmem, ⟨19, _⟩ => ⟨S256x257, .bf16⟩
  | .local _ .vmem, ⟨20, _⟩ => ⟨S257, .f32⟩
  | .local _ .vmem, ⟨21, _⟩ => ⟨S256x128, .bf16⟩
  | .local _ .vmem, ⟨22, _⟩ => ⟨S93x128, .bf16⟩
  | .local _ .vmem, ⟨23, _⟩ => ⟨S128, .f32⟩
  | .local _ .vmem, ⟨24, _⟩ => ⟨S128x3, .bf16⟩
  | .local _ .vmem, ⟨25, _⟩ => ⟨S3, .f32⟩
  | .local _ .vmem, ⟨26, _⟩ => ⟨S2048x4, .f32⟩
  | .local _ .vmem, ⟨27, _⟩ => ⟨S2048x4, .f32⟩
  | _, _ => ⟨S262144x93, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_call0_v0 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_c_0 : Ref sig .tc := ⟨.hbm, 30, rfl⟩
abbrev main_call1_v0 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_1 : Ref sig .tc := ⟨.hbm, 39, rfl⟩
abbrev main_call2_v0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x93 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S93x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S93x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x257 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S257 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S93x128 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x3 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S3 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S2048x4 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  pads_S63x256_S93x256_0300_000 : S63x256.Pads (![0, 0] : Fin 2 → Nat) ![30, 0] ![0, 0] S93x256
  h_S_ : 0 < S_.numel
  bitsLt_bf16_f32 : FTy.bits .bf16 < FTy.bits .f32
  slices_S319x256_S63x256_0_0 : S319x256.Slices ![0, 0] S63x256
  slices_S319x256_S256x256_63_0 : S319x256.Slices ![63, 0] S256x256
  slices_S286x128_S256x128_0_0 : S286x128.Slices ![0, 0] S256x128
  slices_S286x128_S30x128_256_0 : S286x128.Slices ![256, 0] S30x128
  pads_S30x128_S93x128_6300_000 : S30x128.Pads (![63, 0] : Fin 2 → Nat) ![0, 0] ![0, 0] S93x128
  concatenates_S256x256_S256x1_S256x257_d1 : Shape.Concatenates [S256x256, S256x1] S256x257 1
  concatenates_S256_S1_S257_d0 : Shape.Concatenates [S256, S1] S257 0
  inb_S2048x93_S2048x93_0_0 : ∀ a, (![0, 0] : Fin 2 → Nat) a + S2048x93.size a ≤ S2048x93.size a
  h_S2048x93 : 0 < S2048x93.numel
  inb_S93x256_S93x256_0_0 : ∀ a, (![0, 0] : Fin 2 → Nat) a + S93x256.size a ≤ S93x256.size a
  h_S93x256 : 0 < S93x256.numel
  shapeCasts_S93x256_S93x256 : S93x256.ShapeCasts S93x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x257_S256x257_0_0 : ∀ a, (![0, 0] : Fin 2 → Nat) a + S256x257.size a ≤ S256x257.size a
  h_S256x257 : 0 < S256x257.numel
  shapeCasts_S256x257_S256x257 : S256x257.ShapeCasts S256x257
  inb_S257_S257_0 : ∀ a, (![0] : Fin 1 → Nat) a + S257.size a ≤ S257.size a
  h_S257 : 0 < S257.numel
  shapeCasts_S257_S257 : S257.ShapeCasts S257
  shapeCasts_S257_S1x257 : S257.ShapeCasts S1x257
  broadcasts_S1x257_S2048x257 : S1x257.Broadcasts S2048x257
  slices_S2048x257_o0_0_S2048x256 : S2048x257.Slices ![0, 0] S2048x256
  slices_S2048x257_o0_256_S2048x1 : S2048x257.Slices ![0, 256] S2048x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S93x128_S93x128_0_0 : ∀ a, (![0, 0] : Fin 2 → Nat) a + S93x128.size a ≤ S93x128.size a
  h_S93x128 : 0 < S93x128.numel
  shapeCasts_S93x128_S93x128 : S93x128.ShapeCasts S93x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3_S3_0 : ∀ a, (![0] : Fin 1 → Nat) a + S3.size a ≤ S3.size a
  h_S3 : 0 < S3.numel
  shapeCasts_S3_S1x3 : S3.ShapeCasts S1x3
  broadcasts_S1x3_S2048x3 : S1x3.Broadcasts S2048x3
  concatenates_S2048x3_S2048x1_S2048x4_d1 : Shape.Concatenates [S2048x3, S2048x1] S2048x4 1
  inb_S2048x4_S2048x4_0_0 : ∀ a, (![0, 0] : Fin 2 → Nat) a + S2048x4.size a ≤ S2048x4.size a
  h_S2048x4 : 0 < S2048x4.numel
  dot_S2048x93_S93x256_S2048x256_1_0_0_1_n_n_wf : DotDims.WF S2048x93 S93x256 S2048x256 [1] [0] [0] [1] [] []
  dot_S2048x256_S256x256_S2048x256_1_0_0_1_n_n_wf : DotDims.WF S2048x256 S256x256 S2048x256 [1] [0] [0] [1] [] []
  dot_S2048x256_S256x257_S2048x257_1_0_0_1_n_n_wf : DotDims.WF S2048x256 S256x257 S2048x257 [1] [0] [0] [1] [] []
  dot_S2048x256_S256x128_S2048x128_1_0_0_1_n_n_wf : DotDims.WF S2048x256 S256x128 S2048x128 [1] [0] [0] [1] [] []
  dot_S2048x93_S93x128_S2048x128_1_0_0_1_n_n_wf : DotDims.WF S2048x93 S93x128 S2048x128 [1] [0] [0] [1] [] []
  dot_S2048x128_S128x3_S2048x3_1_0_0_1_n_n_wf : DotDims.WF S2048x128 S128x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x93.size a ≤ S262144x93.size a
  hwx0_0 : ∀ i : grid0.Coords, EltTy.bits .f32 = 32 ∨ (Rect.block (s := S262144x93) S2048x93.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S93x256.size a ≤ S93x256.size a
  hwx0_1 : ∀ i : grid0.Coords, EltTy.bits .bf16 = 32 ∨ (Rect.block (s := S93x256) S93x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S93x256.size a ≤ S93x256.size a
  hwx0_9 : ∀ i : grid0.Coords, EltTy.bits .bf16 = 32 ∨ (Rect.block (s := S93x256) S93x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .bf16 = 32 ∨ (Rect.block (s := S256x256) S256x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .bf16 = 32 ∨ (Rect.block (s := S256x256) S256x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x256.size a ≤ S256x256.size a
  hwx0_14 : ∀ i : grid0.Coords, EltTy.bits .bf16 = 32 ∨ (Rect.block (s := S256x256) S256x256.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S256x256.size a
  hwx0_16 : ∀ i : grid0.Coords, EltTy.bits .bf16 = 32 ∨ (Rect.block (s := S256x256) S256x256.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x257.size a ≤ S256x257.size a
  hwx0_18 : ∀ i : grid0.Coords, EltTy.bits .bf16 = 32 ∨ (Rect.block (s := S256x257) S256x257.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S257.size a ≤ S257.size a
  hwx0_19 : ∀ i : grid0.Coords, EltTy.bits .f32 = 32 ∨ (Rect.block (s := S257) S257.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256x128.size a ≤ S256x128.size a
  hwx0_20 : ∀ i : grid0.Coords, EltTy.bits .bf16 = 32 ∨ (Rect.block (s := S256x128) S256x128.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S93x128.size a ≤ S93x128.size a
  hwx0_21 : ∀ i : grid0.Coords, EltTy.bits .bf16 = 32 ∨ (Rect.block (s := S93x128) S93x128.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x3.size a ≤ S128x3.size a
  hwx0_23 : ∀ i : grid0.Coords, EltTy.bits .bf16 = 32 ∨ (Rect.block (s := S128x3) S128x3.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S3.size a ≤ S3.size a
  hwx0_24 : ∀ i : grid0.Coords, EltTy.bits .f32 = 32 ∨ (Rect.block (s := S3) S3.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S2048x4.size a ≤ S262144x4.size a
  hwx0_25 : ∀ i : grid0.Coords, EltTy.bits .f32 = 32 ∨ (Rect.block (s := S262144x4) S2048x4.size (cc0_transform_25 i) (hinb0_25 i)).WholeWords (EltTy.packing .f32)

variable [Facts₀]

def dot_S2048x93_S93x256_S2048x256_1_0_0_1_n_n : DotDims S2048x93 S93x256 S2048x256 where
  lhsContracting := [1]
  rhsContracting := [0]
  lhsNonContracting := [0]
  rhsNonContracting := [1]
  lhsBatch := []
  rhsBatch := []
  wf := dot_S2048x93_S93x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x257_S2048x257_1_0_0_1_n_n : DotDims S2048x256 S256x257 S2048x257 where
  lhsContracting := [1]
  rhsContracting := [0]
  lhsNonContracting := [0]
  rhsNonContracting := [1]
  lhsBatch := []
  rhsBatch := []
  wf := dot_S2048x256_S256x257_S2048x257_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x93_S93x128_S2048x128_1_0_0_1_n_n : DotDims S2048x93 S93x128 S2048x128 where
  lhsContracting := [1]
  rhsContracting := [0]
  lhsNonContracting := [0]
  rhsNonContracting := [1]
  lhsBatch := []
  rhsBatch := []
  wf := dot_S2048x93_S93x128_S2048x128_1_0_0_1_n_n_wf
def dot_S2048x128_S128x3_S2048x3_1_0_0_1_n_n : DotDims S2048x128 S128x3 S2048x3 where
  lhsContracting := [1]
  rhsContracting := [0]
  lhsNonContracting := [0]
  rhsNonContracting := [1]
  lhsBatch := []
  rhsBatch := []
  wf := dot_S2048x128_S128x3_S2048x3_1_0_0_1_n_n_wf

abbrev win0_0 : Pipeline.Window sig grid0 :=
  Pipeline.Window.ofSpec (Memref.whole main_arg0) S2048x93.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S93x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S93x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v19) S256x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v20) S256x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v13) S256x257.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v14) S257.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v8) S256x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v11) S93x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg20) S128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v21) S128x3.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S3.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v22) S2048x4.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S262144x93 : Shape := ⟨2, ![262144, 93]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S286x128 : Shape := ⟨2, ![286, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S262144x63 : Shape := ⟨2, ![262144, 63]⟩
abbrev S262144x30 : Shape := ⟨2, ![262144, 30]⟩
abbrev S262144x256 : Shape := ⟨2, ![262144, 256]⟩
abbrev S1x256 : Shape := ⟨2, ![1, 256]⟩
abbrev S_ : Shape := ⟨0, ![]⟩
abbrev S262144x319 : Shape := ⟨2, ![262144, 319]⟩
abbrev S262144x1 : Shape := ⟨2, ![262144, 1]⟩
abbrev S1x1 : Shape := ⟨2, ![1, 1]⟩
abbrev S262144x286 : Shape := ⟨2, ![262144, 286]⟩
abbrev S262144x128 : Shape := ⟨2, ![262144, 128]⟩
abbrev S1x128 : Shape := ⟨2, ![1, 128]⟩
abbrev S262144x3 : Shape := ⟨2, ![262144, 3]⟩
abbrev S1x3 : Shape := ⟨2, ![1, 3]⟩
abbrev S262144x4 : Shape := ⟨2, ![262144, 4]⟩

abbrev nBuf : Space → Nat
  | .hbm => 113
  | .vmem => 0
  | .smem => 0
  | _ => 0

abbrev bufTy : (tb : Table) → Fin (tcTables nBuf tb) → BufTy
  | .hbm, ⟨0, _⟩ => ⟨S262144x93, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S286x128, .f32⟩
  | .hbm, ⟨20, _⟩ => ⟨S128, .f32⟩
  | .hbm, ⟨21, _⟩ => ⟨S256x1, .f32⟩
  | .hbm, ⟨22, _⟩ => ⟨S1, .f32⟩
  | .hbm, ⟨23, _⟩ => ⟨S128x3, .f32⟩
  | .hbm, ⟨24, _⟩ => ⟨S3, .f32⟩
  | .hbm, ⟨25, _⟩ => ⟨S262144x63, .f32⟩
  | .hbm, ⟨26, _⟩ => ⟨S262144x30, .f32⟩
  | .hbm, ⟨27, _⟩ => ⟨S262144x256, .f32⟩
  | .hbm, ⟨28, _⟩ => ⟨S1x256, .f32⟩
  | .hbm, ⟨29, _⟩ => ⟨S262144x256, .f32⟩
  | .hbm, ⟨30, _⟩ => ⟨S262144x256, .f32⟩
  | .hbm, ⟨31, _⟩ => ⟨S_, .f32⟩
  | .hbm, ⟨32, _⟩ => ⟨S262144x256, .f32⟩
  | .hbm, ⟨33, _⟩ => ⟨S262144x256, .f32⟩
  | .hbm, ⟨34, _⟩ => ⟨S262144x256, .f32⟩
  | .hbm, ⟨35, _⟩ => ⟨S1x256, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S1x256, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S262144x256, .f32⟩
  | .hbm, ⟨47, _⟩ => ⟨S262144x256, .f32⟩
  | .hbm, ⟨48, _⟩ => ⟨S262144x256, .f32⟩
  | .hbm, ⟨49, _⟩ => ⟨S1x256, .f32⟩
  | .hbm, ⟨50, _⟩ => ⟨S262144x256, .f32⟩
  | .hbm, ⟨51, _⟩ => ⟨S262144x256, .f32⟩
  | .hbm, ⟨52, _⟩ => ⟨S_, .f32⟩
  | .hbm, ⟨53, _⟩ => ⟨S262144x256, .f32⟩
  | .hbm, ⟨54, _⟩ => ⟨S262144x256, .f32⟩
  | .hbm, ⟨55, _⟩ => ⟨S262144x319, .f32⟩
  | .hbm, ⟨56, _⟩ => ⟨S262144x256, .f32⟩
  | .hbm, ⟨57, _⟩ => ⟨S1x256, .f32⟩
  | .hbm, ⟨58, _⟩ => ⟨S262144x256, .f32⟩
  | .hbm, ⟨59, _⟩ => ⟨S262144x256, .f32⟩
  | .hbm, ⟨60, _⟩ => ⟨S_, .f32⟩
  | .hbm, ⟨61, _⟩ => ⟨S262144x256, .f32⟩
  | .hbm, ⟨62, _⟩ => ⟨S262144x256, .f32⟩
  | .hbm, ⟨63, _⟩ => ⟨S262144x256, .f32⟩
  | .hbm, ⟨64, _⟩ => ⟨S1x256, .f32⟩
  | .hbm, ⟨65, _⟩ => ⟨S262144x256, .f32⟩
  | .hbm, ⟨66, _⟩ => ⟨S262144x256, .f32⟩
  | .hbm, ⟨67, _⟩ => ⟨S_, .f32⟩
  | .hbm, ⟨68, _⟩ => ⟨S262144x256, .f32⟩
  | .hbm, ⟨69, _⟩ => ⟨S262144x256, .f32⟩
  | .hbm, ⟨70, _⟩ => ⟨S262144x256, .f32⟩
  | .hbm, ⟨71, _⟩ => ⟨S1x256, .f32⟩
  | .hbm, ⟨72, _⟩ => ⟨S262144x256, .f32⟩
  | .hbm, ⟨73, _⟩ => ⟨S262144x256, .f32⟩
  | .hbm, ⟨74, _⟩ => ⟨S_, .f32⟩
  | .hbm, ⟨75, _⟩ => ⟨S262144x256, .f32⟩
  | .hbm, ⟨76, _⟩ => ⟨S262144x256, .f32⟩
  | .hbm, ⟨77, _⟩ => ⟨S262144x256, .f32⟩
  | .hbm, ⟨78, _⟩ => ⟨S1x256, .f32⟩
  | .hbm, ⟨79, _⟩ => ⟨S262144x256, .f32⟩
  | .hbm, ⟨80, _⟩ => ⟨S262144x256, .f32⟩
  | .hbm, ⟨81, _⟩ => ⟨S_, .f32⟩
  | .hbm, ⟨82, _⟩ => ⟨S262144x256, .f32⟩
  | .hbm, ⟨83, _⟩ => ⟨S262144x256, .f32⟩
  | .hbm, ⟨84, _⟩ => ⟨S262144x1, .f32⟩
  | .hbm, ⟨85, _⟩ => ⟨S1x1, .f32⟩
  | .hbm, ⟨86, _⟩ => ⟨S262144x1, .f32⟩
  | .hbm, ⟨87, _⟩ => ⟨S262144x1, .f32⟩
  | .hbm, ⟨88, _⟩ => ⟨S262144x256, .f32⟩
  | .hbm, ⟨89, _⟩ => ⟨S1x256, .f32⟩
  | .hbm, ⟨90, _⟩ => ⟨S262144x256, .f32⟩
  | .hbm, ⟨91, _⟩ => ⟨S262144x256, .f32⟩
  | .hbm, ⟨92, _⟩ => ⟨S262144x286, .f32⟩
  | .hbm, ⟨93, _⟩ => ⟨S262144x128, .f32⟩
  | .hbm, ⟨94, _⟩ => ⟨S1x128, .f32⟩
  | .hbm, ⟨95, _⟩ => ⟨S262144x128, .f32⟩
  | .hbm, ⟨96, _⟩ => ⟨S262144x128, .f32⟩
  | .hbm, ⟨97, _⟩ => ⟨S_, .f32⟩
  | .hbm, ⟨98, _⟩ => ⟨S262144x128, .f32⟩
  | .hbm, ⟨99, _⟩ => ⟨S262144x128, .f32⟩
  | .hbm, ⟨100, _⟩ => ⟨S262144x3, .f32⟩
  | .hbm, ⟨101, _⟩ => ⟨S1x3, .f32⟩
  | .hbm, ⟨102, _⟩ => ⟨S262144x3, .f32⟩
  | .hbm, ⟨103, _⟩ => ⟨S262144x3, .f32⟩
  | .hbm, ⟨104, _⟩ => ⟨S262144x3, .f32⟩
  | .hbm, ⟨105, _⟩ => ⟨S262144x3, .f32⟩
  | .hbm, ⟨106, _⟩ => ⟨S_, .f32⟩
  | .hbm, ⟨107, _⟩ => ⟨S262144x3, .f32⟩
  | .hbm, ⟨108, _⟩ => ⟨S262144x3, .f32⟩
  | .hbm, ⟨109, _⟩ => ⟨S_, .f32⟩
  | .hbm, ⟨110, _⟩ => ⟨S262144x3, .f32⟩
  | .hbm, ⟨111, _⟩ => ⟨S262144x3, .f32⟩
  | .hbm, ⟨112, _⟩ => ⟨S262144x4, .f32⟩
  | _, _ => ⟨S262144x93, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call0_cst : Ref sig .tc := ⟨.hbm, 31, rfl⟩
abbrev main_call0_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call1_cst : Ref sig .tc := ⟨.hbm, 38, rfl⟩
abbrev main_call1_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_call2_cst : Ref sig .tc := ⟨.hbm, 45, rfl⟩
abbrev main_call2_v0 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call3_cst : Ref sig .tc := ⟨.hbm, 52, rfl⟩
abbrev main_call3_v0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call4_cst : Ref sig .tc := ⟨.hbm, 60, rfl⟩
abbrev main_call4_v0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call5_cst : Ref sig .tc := ⟨.hbm, 67, rfl⟩
abbrev main_call5_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call6_cst : Ref sig .tc := ⟨.hbm, 74, rfl⟩
abbrev main_call6_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call7_cst : Ref sig .tc := ⟨.hbm, 81, rfl⟩
abbrev main_call7_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call8_cst : Ref sig .tc := ⟨.hbm, 97, rfl⟩
abbrev main_call8_v0 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst : Ref sig .tc := ⟨.hbm, 106, rfl⟩
abbrev main_v63 : Ref sig .tc := ⟨.hbm, 107, rfl⟩
abbrev main_v64 : Ref sig .tc := ⟨.hbm, 108, rfl⟩
abbrev main_cst_0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩

abbrev nD : Nat := 1
abbrev τ : Topo := Topo.v7x

variable {F : FTy → Type} [FloatOps F]

class Facts₀ : Prop where
  slices_S262144x93_S262144x63_0_0 : S262144x93.Slices ![0, 0] S262144x63
  slices_S262144x93_S262144x30_0_63 : S262144x93.Slices ![0, 63] S262144x30
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  concatenates_S262144x63_S262144x256_S262144x319_d1 : Shape.Concatenates [S262144x63, S262144x256] S262144x319 1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  concatenates_S262144x256_S262144x30_S262144x286_d1 : Shape.Concatenates [S262144x256, S262144x30] S262144x286 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  concatenates_S262144x3_S262144x1_S262144x4_d1 : Shape.Concatenates [S262144x3, S262144x1] S262144x4 1
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x1_S262144x1_1_0_0_1_n_n_wf : DotDims.WF S262144x256 S256x1 S262144x1 [1] [0] [0] [1] [] []
  dot_S262144x286_S286x128_S262144x128_1_0_0_1_n_n_wf : DotDims.WF S262144x286 S286x128 S262144x128 [1] [0] [0] [1] [] []
  dot_S262144x128_S128x3_S262144x3_1_0_0_1_n_n_wf : DotDims.WF S262144x128 S128x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S262144x286_S286x128_S262144x128_1_0_0_1_n_n : DotDims S262144x286 S286x128 S262144x128 where
  lhsContracting := [1]
  rhsContracting := [0]
  lhsNonContracting := [0]
  rhsNonContracting := [1]
  lhsBatch := []
  rhsBatch := []
  wf := dot_S262144x286_S286x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«155531_j78477642432658_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibDenseLayer.lean ====
/-
  One dense layer, entry by entry.

  For `X : n × K`, `W : K × N` and a bias row `B : 1 × N` the layer's entry `(r, q)` is `∑ k, X[r, k] · W[k, q] + B[0, q]`
  (`affine`), and after the rectifier `max (…) 0` (`affineRelu`). Over the extended reals a change of float format is the
  identity, so three spellings of the layer are this one function:
    • a kernel body's block: the operands rounded to bf16, multiplied into the zero accumulator, the bias row broadcast over the
      rows and added, the maximum with a broadcast zero (`block_affine_eq`, `block_affineRelu_eq`);
    • the host's: `dot_general`, the bias vector broadcast to a row and then over the rows, added, the maximum with a broadcast
      zero (`host_affine_eq`, `host_affineRelu_eq`) — the bias row there is the bias vector cast to `1 × N`;
    • and an entry of the layer depends on ONE row of `X` only (`affine_entry`, `affineRelu_entry`), which is what lets a grid of
      row blocks compute the layer of the whole array.
-/
import proofs.«155531_j78477642432658_2_alg».proof.Proof.LibDotColsHost
import Idealize.ShloMosaic.Lib.Pipeline.Value
import Idealize.ShloMosaic.Lib.ValueLayout

noncomputable section

open scoped BigOperators

namespace Cert.Lib.DenseLayer

open Idealize.ShloMosaic Idealize.ShloMosaic.ValueIdx Cert.Lib.DotCols Cert.Lib.DotColsHost

variable {n M K N : Nat}

/-- Entry `(r, q)` of `X · W` plus the bias row's entry `q`. -/
def affine (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => (∑ k : Fin K, X (ix2 (n0 := n) (n1 := K) (i 0) k) * W (ix2 (n0 := K) (n1 := N) k (i 1)))
    + B (ix2 (n0 := 1) (n1 := N) (0 : Fin 1) (i 1))

/-- The same, rectified: the maximum with the float zero. -/
def affineRelu (X : FVec Ideal ⟨2, ![n, K]⟩ .f32) (W : FVec Ideal ⟨2, ![K, N]⟩ .f32) (B : FVec Ideal ⟨2, ![1, N]⟩ .f32) :
    FVec Ideal ⟨2, ![n, N]⟩ .f32 :=
  fun i => max (affine X W B i) (Ideal.ofBits .f32 0x00000000#32)

theorem affine_apply (X : FVec Ideal ⟨2, ![n, K]⟩ .f32) (W : FVec Ideal ⟨2, ![K, N]⟩ .f32) (B : FVec Ideal ⟨2, ![1, N]⟩ .f32)
    (r : Fin n) (q : Fin N) :
    affine X W B (ix2 r q) = (∑ k : Fin K, X (ix2 r k) * W (ix2 k q)) + B (ix2 (0 : Fin 1) q) := rfl

theorem affineRelu_apply (X : FVec Ideal ⟨2, ![n, K]⟩ .f32) (W : FVec Ideal ⟨2, ![K, N]⟩ .f32) (B : FVec Ideal ⟨2, ![1, N]⟩ .f32)
    (r : Fin n) (q : Fin N) :
    affineRelu X W B (ix2 r q)
      = max ((∑ k : Fin K, X (ix2 r k) * W (ix2 k q)) + B (ix2 (0 : Fin 1) q)) (Ideal.ofBits .f32 0x00000000#32) := rfl

/-! ## An entry reads one row of the left operand, one column of the right and one entry of the bias -/

/-- If row `p` of `x` is row `r` of `X`, and column `q` of the weights and entry `q` of the bias row agree, the layer of `x` at
    `(p, q)` is the layer of `X` at `(r, q)`. -/
theorem affine_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affine x W' B' (ix2 p q) = affine X W B (ix2 r q) := by
  rw [affine_apply, affine_apply, hbias]
  exact congrArg (· + B (ix2 (0 : Fin 1) q)) (Finset.sum_congr rfl fun k _ => by rw [hrow k, hcol k])

theorem affineRelu_entry (X : FVec Ideal ⟨2, ![n, K]⟩ .f32) (x : FVec Ideal ⟨2, ![M, K]⟩ .f32) (W W' : FVec Ideal ⟨2, ![K, N]⟩ .f32)
    (B B' : FVec Ideal ⟨2, ![1, N]⟩ .f32) (p : Fin M) (r : Fin n) (q : Fin N)
    (hrow : ∀ k : Fin K, x (ix2 p k) = X (ix2 r k)) (hcol : ∀ k : Fin K, W' (ix2 k q) = W (ix2 k q))
    (hbias : B' (ix2 (0 : Fin 1) q) = B (ix2 (0 : Fin 1) q)) :
    affineRelu x W' B' (ix2 p q) = affineRelu X W B (ix2 r q) :=
  congrArg (fun v => max v (Ideal.ofBits .f32 0x00000000#32)) (affine_entry X x W W' B B' p r q hrow hcol hbias)

/-! ## A kernel body's block -/

/-- The body's sum: both operands rounded to bf16 (the identity here), multiplied into the zero accumulator, plus the bias row
    broadcast over the rows. -/
theorem block_affine_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    addf (matmul D none (truncf .bf16 (shapeCast ⟨2, ![M, K]⟩ x0 h0) hbits) (truncf .bf16 x1 hbits)
        (constant ⟨2, ![M, N]⟩ .f32 0x00000000#32))
      (broadcastTo ⟨2, ![M, N]⟩ (shapeCast ⟨2, ![1, N]⟩ x2 h2) hb) = affine x0 x1 x2 := by
  funext i
  obtain ⟨p, q, rfl⟩ : ∃ (p : Fin M) (q : Fin N), i = ix2 p q := ⟨i 0, i 1, eq_ix2 i⟩
  rw [affine_apply, addf_apply, shapeCast_self, shapeCast_self, broadcastTo_1b_ab_apply]
  refine congrArg (· + x2 (ix2 (0 : Fin 1) q)) ?_
  exact (matmul_cols_apply D hD none (truncf .bf16 x0 hbits) (truncf .bf16 x1 hbits) p q).trans
    (Finset.sum_congr rfl fun k _ => rfl)

/-- … and its maximum with a broadcast zero. -/
theorem block_affineRelu_eq (D : DotDims ⟨2, ![M, K]⟩ ⟨2, ![K, N]⟩ ⟨2, ![M, N]⟩) (hD : D = DotDims.plain M K N)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩) (hbits : FTy.bits .bf16 < FTy.bits .f32)
    (x0 : FVec Ideal ⟨2, ![M, K]⟩ .f32) (x1 : FVec Ideal ⟨2, ![K, N]⟩ .f32) (x2 : FVec Ideal ⟨2, ![1, N]⟩ .f32) :
    maximumf (addf (matmul D none (truncf .bf16 (shapeCast ⟨2, ![M, K]⟩ x0 h0) hbits) (truncf .bf16 x1 hbits)
          (constant ⟨2, ![M, N]⟩ .f32 0x00000000#32))
        (broadcastTo ⟨2, ![M, N]⟩ (shapeCast ⟨2, ![1, N]⟩ x2 h2) hb))
      (broadcast ⟨2, ![M, N]⟩ (Scalar.ofBits (F := Ideal) .f32 0x00000000#32)) = affineRelu x0 x1 x2 := by
  rw [block_affine_eq D hD h0 h2 hb hbits]
  rfl

/-! ## The host's layer -/

/-- A bias vector broadcast to a row and then over the rows reads, at `(r, q)`, its entry `q`. -/
theorem bias_rows_apply (hb1 : (⟨1, ![N]⟩ : Shape).BroadcastsInDim ⟨2, ![1, N]⟩ ![1])
    (hb2 : (⟨2, ![1, N]⟩ : Shape).BroadcastsInDim ⟨2, ![n, N]⟩ ![0, 1]) (b : FVec Ideal ⟨1, ![N]⟩ .f32) (r : Fin n) (q : Fin N) :
    broadcastInDim ⟨2, ![n, N]⟩ ![0, 1] hb2 (broadcastInDim ⟨2, ![1, N]⟩ ![1] hb1 b) (ix2 r q) = b (ix1 q) := by
  rw [broadcastInDim_apply ![0, 1] hb2 _ (ix2 r q) (ix2 (0 : Fin 1) q) (fun a => by
      match a with
      | ⟨0, _⟩ => exact (if_pos rfl).symm
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl)]

/-- The bias vector cast to a row reads the same entry. -/
theorem bias_cast_apply (hsc : (⟨1, ![N]⟩ : Shape).ShapeCasts ⟨2, ![1, N]⟩) (b : FVec Ideal ⟨1, ![N]⟩ .f32) (q : Fin N) :
    shapeCast ⟨2, ![1, N]⟩ b hsc (ix2 (0 : Fin 1) q) = b (ix1 q) :=
  shapeCast_a_1a_apply b hsc 0 q

/-- The host's product plus the broadcast bias is the layer at the bias cast to a row. -/
theorem host_affine_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    addf (Host.dotGeneral D none X W) (broadcastInDim ⟨2, ![n, N]⟩ ![0, 1] hb2 (broadcastInDim ⟨2, ![1, N]⟩ ![1] hb1 b))
      = affine X W (shapeCast ⟨2, ![1, N]⟩ b hsc) := by
  funext i
  obtain ⟨r, q, rfl⟩ : ∃ (r : Fin n) (q : Fin N), i = ix2 r q := ⟨i 0, i 1, eq_ix2 i⟩
  rw [affine_apply, addf_apply, bias_rows_apply hb1 hb2 b r q, bias_cast_apply hsc b q]
  exact congrArg (· + b (ix1 q)) (dotGeneral_cols_apply D hD none .single X W r q)

/-- … and its maximum with a broadcast zero the rectified layer. -/
theorem host_affineRelu_eq (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : FVec Ideal ⟨2, ![n, K]⟩ .f32) (W : FVec Ideal ⟨2, ![K, N]⟩ .f32) (b : FVec Ideal ⟨1, ![N]⟩ .f32) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (shapeCast ⟨2, ![1, N]⟩ b hsc) := by
  rw [host_affine_eq D hD hb1 hb2 hsc]
  funext i
  rw [maximumf_apply, broadcastInDim_apply ![] hb0 _ i ix0 (fun a => a.elim0)]
  rfl

/-- The rectifier applied twice is the rectifier: `max (max v 0) 0 = max v 0`. -/
theorem relu_relu (Y : FVec Ideal ⟨2, ![n, N]⟩ .f32) (hb0 : (⟨0, ![]⟩ : Shape).BroadcastsInDim ⟨2, ![n, N]⟩ ![]) :
    maximumf (maximumf Y (broadcastInDim ⟨2, ![n, N]⟩ ![] hb0 (constant (F := Ideal) ⟨0, ![]⟩ .f32 0x00000000#32)))
        (broadcastInDim ⟨2, ![n, N]⟩ ![] hb0 (constant (F := Ideal) ⟨0, ![]⟩ .f32 0x00000000#32))
      = maximumf Y (broadcastInDim ⟨2, ![n, N]⟩ ![] hb0 (constant (F := Ideal) ⟨0, ![]⟩ .f32 0x00000000#32)) := by
  funext i
  rw [maximumf_apply, maximumf_apply]
  exact max_eq_left (le_max_right _ _)

end Cert.Lib.DenseLayer

end
-- ==== Proof.NerfSpec.lean ====
/-
  The network this kernel evaluates, row by row, written twice.

  Every output row depends on one row `x` of the input only (93 numbers: 63 position features, then 30 direction
  features). With `relu v = max v 0` and `σ` the logistic function,
    h₁ = relu (x[0:63]·w0 + b0),  h₂ … h₄ = relu (h·w + b),
    h₅ = relu ((x[0:63] ‖ h₄)·w4 + b4),  h₆ … h₈ = relu (h·w + b),
    sigma = h₈·ws + bs,   f = h₈·wf + bf,   d = relu ((f ‖ x[63:93])·wd + bd),   rgb = σ (d·wr + br),
  and the result row is `rgb ‖ sigma` (`‖` joins along the columns). `G` is this text, one array operation per line.

  `K` is the same network as a program may arrange it to avoid slicing and joining the 93-wide rows: a product with
  `x[0:63]` becomes a product of the whole row with the weight matrix extended by zero rows; a product with a joined row
  `(u ‖ v)` becomes the sum of two products with the two row blocks of the weight matrix; the two heads that read `h₈`
  become one product with the joined weight matrix `(wf ‖ ws)` and bias `(bf ‖ bs)`, cut apart afterwards.
  That `K` at the rearranged weights is `G` is a fact about finite sums in a commutative monoid with `x · 0 = 0`;
  it needs no finiteness.
-/
import proofs.«155531_j78477642432658_2_alg».proof.Proof.LibDenseLayer

noncomputable section

open scoped BigOperators

namespace Cert.Nerf

open Idealize.ShloMosaic Idealize.ShloMosaic.ValueIdx Cert.Lib.DenseLayer

/-- An `a × b` array and a vector of `a` entries, of extended reals. -/
abbrev Mat (a b : Nat) : Type := FVec Ideal ⟨2, ![a, b]⟩ .f32
abbrev Row (a : Nat) : Type := FVec Ideal ⟨1, ![a]⟩ .f32

variable {n : Nat}

/-- A vector as a one-row array. -/
def row {N : Nat} (b : Row N) : Mat 1 N := fun i => b (ix1 (n := N) (i 1))

/-- The matrix product, entry by entry. -/
def prod {K N : Nat} (Y : Mat n K) (W : Mat K N) : Mat n N :=
  fun i => ∑ k : Fin K, Y (ix2 (n0 := n) (n1 := K) (i 0) k) * W (ix2 (n0 := K) (n1 := N) k (i 1))

/-- Columns `o … o + c − 1` of an array. -/
def cols {m : Nat} (o c : Nat) (h : o + c ≤ m) (Z : Mat n m) : Mat n c :=
  fun i => Z (ix2 (n0 := n) (n1 := m) (i 0) ⟨o + (i 1).val, by have h1 : (i 1).val < c := (i 1).isLt; omega⟩)

/-- Rows `o … o + c − 1` of an array. -/
def rows {m N : Nat} (o c : Nat) (h : o + c ≤ m) (W : Mat m N) : Mat c N :=
  fun i => W (ix2 (n0 := m) (n1 := N) ⟨o + (i 0).val, by have h1 : (i 0).val < c := (i 0).isLt; omega⟩ (i 1))

/-- An array placed at rows `lo … lo + c − 1` of an `m`-row array of zeros. -/
def padRows {c N : Nat} (lo m : Nat) (W : Mat c N) : Mat m N :=
  fun i => if h : lo ≤ (i 0).val ∧ (i 0).val - lo < c then W (ix2 (n0 := c) (n1 := N) ⟨(i 0).val - lo, h.2⟩ (i 1)) else 0

/-- Two arrays joined along the columns. -/
def joinCols {a b : Nat} (c : Nat) (hc : c = a + b) (L : Mat n a) (R : Mat n b) : Mat n c :=
  fun i => if h : (i 1).val < a then L (ix2 (n0 := n) (n1 := a) (i 0) ⟨(i 1).val, h⟩)
    else R (ix2 (n0 := n) (n1 := b) (i 0) ⟨(i 1).val - a, by have h1 : (i 1).val < c := (i 1).isLt; omega⟩)

/-- Two vectors joined. -/
def joinRow {a b : Nat} (c : Nat) (hc : c = a + b) (u : Row a) (v : Row b) : Row c :=
  fun i => if h : (i 0).val < a then u (ix1 (n := a) ⟨(i 0).val, h⟩)
    else v (ix1 (n := b) ⟨(i 0).val - a, by have h1 : (i 0).val < c := (i 0).isLt; omega⟩)

/-- The logistic function on every entry. -/
def sigm {a : Nat} (Z : Mat n a) : Mat n a := fun i => Ideal.logistic (Z i)

/-- `relu (X·A + Y·B + b)`: a rectified layer fed by two products. -/
def affine2Relu {K₁ K₂ N : Nat} (X : Mat n K₁) (A : Mat K₁ N) (Y : Mat n K₂) (B : Mat K₂ N) (b : Mat 1 N) : Mat n N :=
  fun i => max ((prod X A i + prod Y B i) + b (ix2 (n0 := 1) (n1 := N) (0 : Fin 1) (i 1))) (Ideal.ofBits .f32 0x00000000#32)

/-! ## The network as the reference spells it -/

/-- `h₄`: four rectified layers from the 63 position features. -/
def trunkA (X : Mat n 93) (w0 : Mat 63 256) (b0 : Row 256) (w1 : Mat 256 256) (b1 : Row 256) (w2 : Mat 256 256) (b2 : Row 256)
    (w3 : Mat 256 256) (b3 : Row 256) : Mat n 256 :=
  affineRelu (affineRelu (affineRelu (affineRelu (cols 0 63 (by decide) X) w0 (row b0)) w1 (row b1)) w2 (row b2)) w3 (row b3)

/-- `h₈` from `h₄`: the layer that reads the position features again, then three more. -/
def trunkB (X : Mat n 93) (h4 : Mat n 256) (w4 : Mat 319 256) (b4 : Row 256) (w5 : Mat 256 256) (b5 : Row 256)
    (w6 : Mat 256 256) (b6 : Row 256) (w7 : Mat 256 256) (b7 : Row 256) : Mat n 256 :=
  affineRelu (affineRelu (affineRelu (affineRelu (joinCols 319 rfl (cols 0 63 (by decide) X) h4) w4 (row b4)) w5 (row b5)) w6 (row b6))
    w7 (row b7)

/-- The result from `h₈`: density, features, the direction layer, colour; colour and density joined. -/
def heads (X : Mat n 93) (h8 : Mat n 256) (wf : Mat 256 256) (bf : Row 256) (wd : Mat 286 128) (bd : Row 128)
    (ws : Mat 256 1) (bs : Row 1) (wr : Mat 128 3) (br : Row 3) : Mat n 4 :=
  joinCols 4 rfl
    (sigm (affine (affineRelu (joinCols 286 rfl (affine h8 wf (row bf)) (cols 63 30 (by decide) X)) wd (row bd)) wr (row br)))
    (affine h8 ws (row bs))

/-- THE NETWORK: the result array as one function of the input rows and the twenty-four parameter arrays. -/
def G (X : Mat n 93) (w0 : Mat 63 256) (b0 : Row 256) (w1 : Mat 256 256) (b1 : Row 256) (w2 : Mat 256 256) (b2 : Row 256)
    (w3 : Mat 256 256) (b3 : Row 256) (w4 : Mat 319 256) (b4 : Row 256) (w5 : Mat 256 256) (b5 : Row 256)
    (w6 : Mat 256 256) (b6 : Row 256) (w7 : Mat 256 256) (b7 : Row 256) (wf : Mat 256 256) (bf : Row 256)
    (wd : Mat 286 128) (bd : Row 128) (ws : Mat 256 1) (bs : Row 1) (wr : Mat 128 3) (br : Row 3) : Mat n 4 :=
  heads X (trunkB X (trunkA X w0 b0 w1 b1 w2 b2 w3 b3) w4 b4 w5 b5 w6 b6 w7 b7) wf bf wd bd ws bs wr br

/-! ## The network rearranged: whole 93-wide rows, split products, one joined head -/

/-- `h₄` with the first layer reading the whole row against a 93-row weight matrix. -/
def trunkA' (X : Mat n 93) (W0 : Mat 93 256) (b0 : Row 256) (w1 : Mat 256 256) (b1 : Row 256) (w2 : Mat 256 256) (b2 : Row 256)
    (w3 : Mat 256 256) (b3 : Row 256) : Mat n 256 :=
  affineRelu (affineRelu (affineRelu (affineRelu X W0 (row b0)) w1 (row b1)) w2 (row b2)) w3 (row b3)

/-- `h₈` from `h₄` with the joined layer as two products. -/
def trunkB' (X : Mat n 93) (h4 : Mat n 256) (W4x : Mat 93 256) (W4h : Mat 256 256) (b4 : Row 256) (w5 : Mat 256 256) (b5 : Row 256)
    (w6 : Mat 256 256) (b6 : Row 256) (w7 : Mat 256 256) (b7 : Row 256) : Mat n 256 :=
  affineRelu (affineRelu (affineRelu (affine2Relu X W4x h4 W4h (row b4)) w5 (row b5)) w6 (row b6)) w7 (row b7)

/-- The two heads that read `h₈` as one 257-column layer. -/
def fused (h8 : Mat n 256) (Wfs : Mat 256 257) (Bfs : Row 257) : Mat n 257 := affine h8 Wfs (row Bfs)

/-- The pre-activation of the colour from the fused layer, the direction layer as two products. -/
def colourPre (X : Mat n 93) (fs : Mat n 257) (Wdx : Mat 256 128) (Wdd : Mat 93 128) (bd : Row 128) (wr : Mat 128 3) (br : Row 3) :
    Mat n 3 :=
  affine (affine2Relu (cols 0 256 (by decide) fs) Wdx X Wdd (row bd)) wr (row br)

/-- The result from the fused layer. -/
def heads' (X : Mat n 93) (fs : Mat n 257) (Wdx : Mat 256 128) (Wdd : Mat 93 128) (bd : Row 128) (wr : Mat 128 3) (br : Row 3) :
    Mat n 4 :=
  joinCols 4 rfl (sigm (colourPre X fs Wdx Wdd bd wr br)) (cols 256 1 (by decide) fs)

/-- THE REARRANGED NETWORK. -/
def K (X : Mat n 93) (W0 : Mat 93 256) (b0 : Row 256) (w1 : Mat 256 256) (b1 : Row 256) (w2 : Mat 256 256) (b2 : Row 256)
    (w3 : Mat 256 256) (b3 : Row 256) (W4x : Mat 93 256) (W4h : Mat 256 256) (b4 : Row 256) (w5 : Mat 256 256) (b5 : Row 256)
    (w6 : Mat 256 256) (b6 : Row 256) (w7 : Mat 256 256) (b7 : Row 256) (Wfs : Mat 256 257) (Bfs : Row 257)
    (Wdx : Mat 256 128) (Wdd : Mat 93 128) (bd : Row 128) (wr : Mat 128 3) (br : Row 3) : Mat n 4 :=
  heads' X (fused (trunkB' X (trunkA' X W0 b0 w1 b1 w2 b2 w3 b3) W4x W4h b4 w5 b5 w6 b6 w7 b7) Wfs Bfs) Wdx Wdd bd wr br

/-! ## Small facts both sides use -/

/-- A vector cast to a one-row array is `row` of it. -/
theorem shapeCast_row {N : Nat} (hsc : (⟨1, ![N]⟩ : Shape).ShapeCasts ⟨2, ![1, N]⟩) (b : Row N) :
    shapeCast ⟨2, ![1, N]⟩ b hsc = row b := by
  funext i
  obtain ⟨p, q, rfl⟩ : ∃ (p : Fin 1) (q : Fin N), i = ix2 p q := ⟨i 0, i 1, eq_ix2 i⟩
  obtain rfl : p = 0 := Subsingleton.elim _ _
  exact bias_cast_apply hsc b q

/-- A layer is its product plus the bias row. -/
theorem affine_eq_prod {K N : Nat} (Y : Mat n K) (W : Mat K N) (B : Mat 1 N) (i : (⟨2, ![n, N]⟩ : Shape).Idx) :
    affine Y W B i = prod Y W i + B (ix2 (n0 := 1) (n1 := N) (0 : Fin 1) (i 1)) := rfl

end Cert.Nerf

end
-- ==== Proof.KernelLayers.lean ====
/-
  The pieces a kernel body is spelt with, read as the network's array operations.

  Over the extended reals a change of float format is the identity, a matrix product into the zero accumulator is the plain
  product, a bias vector cast to one row and spread over the rows adds the bias entry of the column, and the maximum with a
  spread zero is the rectifier. So each run of such operations in a body is one of `prod`, `affine`, `affineRelu`,
  `affine2Relu`; a cut along the columns is `cols`; two arrays laid side by side are `joinCols`.
-/
import proofs.«155531_j78477642432658_2_alg».proof.Proof.NerfSpec
import Idealize.ShloMosaic.Lib.Pipeline.Value
import Idealize.ShloMosaic.Lib.ValueLayout

noncomputable section

open scoped BigOperators

namespace Cert.Nerf.Body

open Idealize.ShloMosaic Idealize.ShloMosaic.ValueIdx Cert.Lib.DenseLayer Cert.Lib.DotCols Cert.Nerf

variable {M K N : Nat}

/-- A one-row array repeated on every row. -/
def spread (B : Mat 1 N) : Mat M N := fun i => B (ix2 (n0 := 1) (n1 := N) (0 : Fin 1) (i 1))

/-- Rounding to a narrower format changes nothing here. -/
theorem truncf_eq {s : Shape} {φ ψ : FTy} (a : FVec Ideal s φ) (h : ψ.bits < φ.bits) :
    (truncf ψ a h : FVec Ideal s ψ) = a := rfl

/-- A product into the zero accumulator, the right operand cast to its own shape, is the plain product. -/
theorem matmul_eq_prod {φ₁ φ₂ : FTy} (D : DotDims ⟨2, ![M, K]⟩ ⟨2, ![K, N]⟩ ⟨2, ![M, N]⟩) (hD : D = DotDims.plain M K N)
    (h0 : (⟨2, ![K, N]⟩ : Shape).ShapeCasts ⟨2, ![K, N]⟩)
    (Y : FVec Ideal ⟨2, ![M, K]⟩ φ₁) (W : FVec Ideal ⟨2, ![K, N]⟩ φ₂) :
    matmul D none Y (shapeCast ⟨2, ![K, N]⟩ W h0) (constant ⟨2, ![M, N]⟩ .f32 0x00000000#32) = prod (n := M) Y W := by
  funext i
  obtain ⟨p, q, rfl⟩ : ∃ (p : Fin M) (q : Fin N), i = ix2 p q := ⟨i 0, i 1, eq_ix2 i⟩
  rw [shapeCast_self]
  exact matmul_cols_apply D hD none Y W p q

/-- A bias vector cast to a row and spread over the rows. -/
theorem bias_spread (h2 : (⟨1, ![N]⟩ : Shape).ShapeCasts ⟨2, ![1, N]⟩) (hb : (⟨2, ![1, N]⟩ : Shape).Broadcasts ⟨2, ![M, N]⟩)
    (b : Row N) : broadcastTo ⟨2, ![M, N]⟩ (shapeCast ⟨2, ![1, N]⟩ b h2) hb = spread (M := M) (row b) := by
  funext i
  obtain ⟨p, q, rfl⟩ : ∃ (p : Fin M) (q : Fin N), i = ix2 p q := ⟨i 0, i 1, eq_ix2 i⟩
  rw [broadcastTo_1b_ab_apply, shapeCast_row]
  rfl

/-- Product plus spread bias is the layer. -/
theorem prod_add_spread (Y : Mat M K) (W : Mat K N) (B : Mat 1 N) : addf (prod Y W) (spread B) = affine Y W B := rfl

/-- The maximum with a spread zero is the rectified layer. -/
theorem relu_affine (Y : Mat M K) (W : Mat K N) (B : Mat 1 N) :
    maximumf (affine Y W B) (broadcast ⟨2, ![M, N]⟩ (Scalar.ofBits (F := Ideal) .f32 0x00000000#32)) = affineRelu Y W B := rfl

/-- Two products added, the bias spread and added, the maximum with a spread zero. -/
theorem relu_two_products {K₂ : Nat} (X : Mat M K) (A : Mat K N) (Y : Mat M K₂) (B : Mat K₂ N) (b : Mat 1 N) :
    maximumf (addf (addf (prod X A) (prod Y B)) (spread b)) (broadcast ⟨2, ![M, N]⟩ (Scalar.ofBits (F := Ideal) .f32 0x00000000#32))
      = affine2Relu X A Y B b := rfl

/-- A cut of `c` columns from column `o`. -/
theorem slice_cols {m : Nat} (o c : Nat) (h : o + c ≤ m) (Z : Mat M m)
    (hs : (⟨2, ![M, m]⟩ : Shape).Slices ![0, o] ⟨2, ![M, c]⟩) :
    extractStridedSlice ⟨2, ![M, c]⟩ ![0, o] Z hs = cols o c h Z := by
  funext i
  obtain ⟨p, q, rfl⟩ : ∃ (p : Fin M) (q : Fin c), i = ix2 p q := ⟨i 0, i 1, eq_ix2 i⟩
  exact slice2_axis1_apply o Z hs p q _ rfl

/-- Two arrays laid side by side along the columns. -/
theorem concat_cols {a b : Nat} (c : Nat) (hc : c = a + b) (L : Mat M a) (R : Mat M b)
    (h : Shape.Concatenates [(⟨2, ![M, a]⟩ : Shape), ⟨2, ![M, b]⟩] ⟨2, ![M, c]⟩ 1) :
    concatenate ⟨2, ![M, c]⟩ 1 [⟨⟨2, ![M, a]⟩, L⟩, ⟨⟨2, ![M, b]⟩, R⟩] h = joinCols c hc L R := by
  funext i
  obtain ⟨p, q, rfl⟩ : ∃ (p : Fin M) (q : Fin c), i = ix2 p q := ⟨i 0, i 1, eq_ix2 i⟩
  unfold joinCols
  by_cases hq : q.val < a
  · rw [dif_pos (show ((ix2 p q : (⟨2, ![M, c]⟩ : Shape).Idx) 1).val < a from hq)]
    refine concatenate_pair_apply_left (1 : Fin 2) L R h (ix2 p q) rfl (ix2 p ⟨q.val, hq⟩) (fun ax => ?_)
    match ax with
    | ⟨0, _⟩ => rfl
    | ⟨1, _⟩ => rfl
  · rw [dif_neg (show ¬ ((ix2 p q : (⟨2, ![M, c]⟩ : Shape).Idx) 1).val < a from hq)]
    have hq' : q.val - a < b := by have := q.isLt; omega
    refine concatenate_pair_apply_right (1 : Fin 2) L R h (ix2 p q) rfl rfl (ix2 p ⟨q.val - a, hq'⟩) (fun ax hax => ?_) ?_
    · match ax with
      | ⟨0, _⟩ => rfl
      | ⟨1, _⟩ => exact absurd rfl hax
    · show q.val - a + a = q.val
      omega

/-- The logistic function entry by entry. -/
theorem logistic_eq {a : Nat} (Z : Mat M a) : logistic Z = sigm Z := rfl

end Cert.Nerf.Body

end
-- ==== Proof.KernelBlock.lean ====
/-
  What one grid point computes: the kernel body's stored value, over its loaded blocks, is the rearranged network `K` of
  the block of input rows and the weight arrays as loaded.

  The body's arithmetic is eight named stretches. Read one at a time, each is a few of the network's array operations; put
  together in the order the body uses them they are `K`.
-/
import proofs.«155531_j78477642432658_2_alg».proof.Proof.Gen.KernelIdeal.Frame
import proofs.«155531_j78477642432658_2_alg».proof.Proof.KernelLayers

noncomputable section

namespace Cert.Nerf.Body

open Idealize.ShloMosaic Idealize.ShloMosaic.ValueIdx Idealize.ShloMosaic.TcCoe Idealize.SL.Sem
open Cert.KernelIdeal Cert.KernelIdeal.Gen Cert.Lib.DenseLayer Cert.Nerf

/-- The input block rounded to bf16 is the input block. -/
theorem pay2_eq (x0 : Vec Ideal S2048x93 .f32) : k0_pay2 x0 = x0 := rfl

/-- Three rectified layers, then the product of the fourth. -/
theorem pay3_eq (x0 : Vec Ideal S2048x93 .f32) (w0 : Vec Ideal S93x256 .bf16) (b0 : Vec Ideal S256 .f32)
    (w1 : Vec Ideal S256x256 .bf16) (b1 : Vec Ideal S256 .f32) (w2 : Vec Ideal S256x256 .bf16) (b2 : Vec Ideal S256 .f32)
    (w3 : Vec Ideal S256x256 .bf16) :
    k0_pay3 x0 w0 b0 w1 b1 w2 b2 w3
      = prod (n := 2048) (affineRelu (affineRelu (affineRelu (n := 2048) x0 w0 (row b0)) w1 (row b1)) w2 (row b2)) w3 := by
  unfold k0_pay3 k0_pay2
  simp only [truncf_eq, matmul_eq_prod dot_S2048x93_S93x256_S2048x256_1_0_0_1_n_n rfl,
    matmul_eq_prod dot_S2048x256_S256x256_S2048x256_1_0_0_1_n_n rfl, bias_spread, prod_add_spread, relu_affine]

/-- The fourth layer's bias, spread over the rows. -/
theorem pay4_eq (b3 : Vec Ideal S256 .f32) : k0_pay4 b3 = spread (M := 2048) (row b3) := by
  unfold k0_pay4
  simp only [bias_spread]

/-- The fourth layer finished, the layer that reads the input rows again as two products, and two more layers. -/
theorem pay5_eq (x0 : Vec Ideal S2048x93 .f32) (a3 : Mat 2048 256) (w3 : Vec Ideal S256x256 .bf16) (b3 : Vec Ideal S256 .f32)
    (w4x : Vec Ideal S93x256 .bf16) (w4h : Vec Ideal S256x256 .bf16) (b4 : Vec Ideal S256 .f32)
    (w5 : Vec Ideal S256x256 .bf16) (b5 : Vec Ideal S256 .f32) (w6 : Vec Ideal S256x256 .bf16) (b6 : Vec Ideal S256 .f32) :
    k0_pay5 x0 (prod a3 w3) (spread (row b3)) w4x w4h b4 w5 b5 w6 b6
      = affineRelu (affineRelu (affine2Relu (n := 2048) x0 w4x (affineRelu a3 w3 (row b3)) w4h (row b4)) w5 (row b5)) w6 (row b6) := by
  unfold k0_pay5
  simp only [truncf_eq, matmul_eq_prod dot_S2048x93_S93x256_S2048x256_1_0_0_1_n_n rfl,
    matmul_eq_prod dot_S2048x256_S256x256_S2048x256_1_0_0_1_n_n rfl, bias_spread, prod_add_spread, relu_affine, relu_two_products]

/-- The eighth layer and the two heads that read it, as one 257-column layer. -/
theorem pay6_eq (a7 : Mat 2048 256) (w7 : Vec Ideal S256x256 .bf16) (b7 : Vec Ideal S256 .f32)
    (wfs : Vec Ideal S256x257 .bf16) (bfs : Vec Ideal S257 .f32) :
    k0_pay6 a7 w7 b7 wfs bfs = fused (n := 2048) (affineRelu a7 w7 (row b7)) wfs bfs := by
  unfold k0_pay6 fused
  simp only [truncf_eq, shapeCast_self (s := S257), matmul_eq_prod dot_S2048x256_S256x256_S2048x256_1_0_0_1_n_n rfl,
    matmul_eq_prod dot_S2048x256_S256x257_S2048x257_1_0_0_1_n_n rfl, bias_spread, prod_add_spread, relu_affine]

/-- The density: the last column of the fused layer. -/
theorem pay7_eq (a7 : Mat 2048 256) (w7 : Vec Ideal S256x256 .bf16) (b7 : Vec Ideal S256 .f32)
    (wfs : Vec Ideal S256x257 .bf16) (bfs : Vec Ideal S257 .f32) :
    k0_pay7 a7 w7 b7 wfs bfs = cols 256 1 (by decide) (fused (n := 2048) (affineRelu a7 w7 (row b7)) wfs bfs) := by
  unfold k0_pay7
  rw [pay6_eq]
  exact slice_cols 256 1 (by decide) _ _

/-- The colour before the logistic function: the direction layer as two products, then the colour layer. -/
theorem pay8_eq (x0 : Vec Ideal S2048x93 .f32) (a7 : Mat 2048 256) (w7 : Vec Ideal S256x256 .bf16) (b7 : Vec Ideal S256 .f32)
    (wfs : Vec Ideal S256x257 .bf16) (bfs : Vec Ideal S257 .f32) (wdx : Vec Ideal S256x128 .bf16) (wdd : Vec Ideal S93x128 .bf16)
    (bd : Vec Ideal S128 .f32) (wr : Vec Ideal S128x3 .bf16) (br : Vec Ideal S3 .f32) :
    k0_pay8 x0 a7 w7 b7 wfs bfs wdx wdd bd wr br
      = colourPre (n := 2048) x0 (fused (affineRelu a7 w7 (row b7)) wfs bfs) wdx wdd bd wr br := by
  unfold k0_pay8 colourPre
  rw [pay6_eq]
  simp only [truncf_eq, slice_cols (m := 257) 0 256 (by decide), matmul_eq_prod dot_S2048x256_S256x128_S2048x128_1_0_0_1_n_n rfl,
    matmul_eq_prod dot_S2048x93_S93x128_S2048x128_1_0_0_1_n_n rfl, matmul_eq_prod dot_S2048x128_S128x3_S2048x3_1_0_0_1_n_n rfl,
    bias_spread, prod_add_spread, relu_two_products]

/-- The stored value: the colour through the logistic function beside the density. -/
theorem pay1_eq (sigma : Mat 2048 1) (z : Mat 2048 3) : k0_pay1 sigma z = joinCols 4 rfl (sigm z) sigma := by
  unfold k0_pay1
  rw [logistic_eq]
  exact concat_cols 4 rfl _ _ _

theorem hz2 : (![0, 0] : Fin 2 → Nat) = fun _ => 0 := funext fun a => by fin_cases a <;> rfl
theorem hz1 : (![0] : Fin 1 → Nat) = fun _ => 0 := funext fun a => by fin_cases a; rfl

/-- ONE GRID POINT: the block the body stores is the rearranged network of the blocks it loaded. -/
theorem block_eq (x0 : Vec Ideal S2048x93 .f32) (x1 : Vec Ideal S93x256 .bf16) (x2 : Vec Ideal S256 .f32) (x3 : Vec Ideal S256x256 .bf16)
    (x4 : Vec Ideal S256 .f32) (x5 : Vec Ideal S256x256 .bf16) (x6 : Vec Ideal S256 .f32) (x7 : Vec Ideal S256x256 .bf16)
    (x8 : Vec Ideal S256 .f32) (x9 : Vec Ideal S93x256 .bf16) (x10 : Vec Ideal S256x256 .bf16) (x11 : Vec Ideal S256 .f32)
    (x12 : Vec Ideal S256x256 .bf16) (x13 : Vec Ideal S256 .f32) (x14 : Vec Ideal S256x256 .bf16) (x15 : Vec Ideal S256 .f32)
    (x16 : Vec Ideal S256x256 .bf16) (x17 : Vec Ideal S256 .f32) (x18 : Vec Ideal S256x257 .bf16) (x19 : Vec Ideal S257 .f32)
    (x20 : Vec Ideal S256x128 .bf16) (x21 : Vec Ideal S93x128 .bf16) (x22 : Vec Ideal S128 .f32) (x23 : Vec Ideal S128x3 .bf16)
    (x24 : Vec Ideal S3 .f32) :
    out0_25 x0 x1 x2 x3 x4 x5 x6 x7 x8 x9 x10 x11 x12 x13 x14 x15 x16 x17 x18 x19 x20 x21 x22 x23 x24
      = K (n := 2048) x0 x1 x2 x3 x4 x5 x6 x7 x8 x9 x10 x11 x12 x13 x14 x15 x16 x17 x18 x19 x20 x21 x22 x23 x24 := by
  unfold out0_25
  rw [View.canon_unit_zero hz2]
  simp only [View.ld_unit_zero (S := S2048x93) hz2, View.ld_unit_zero (S := S93x256) hz2, View.ld_unit_zero (S := S256) hz1,
    View.ld_unit_zero (S := S256x256) hz2, View.ld_unit_zero (S := S256x257) hz2, View.ld_unit_zero (S := S257) hz1,
    View.ld_unit_zero (S := S256x128) hz2, View.ld_unit_zero (S := S93x128) hz2, View.ld_unit_zero (S := S128) hz1,
    View.ld_unit_zero (S := S128x3) hz2, View.ld_unit_zero (S := S3) hz1]
  rw [pay2_eq, pay3_eq, pay4_eq, pay5_eq, pay7_eq, pay8_eq, pay1_eq]
  rfl

end Cert.Nerf.Body

end
-- ==== Proof.HostPrep.lean ====
/-
  The arrays the kernel is handed, read as the rearranged network's weights.

  Before the kernel runs, the weight matrices are prepared: w0 and the first 63 rows of w4 are extended to 93 rows by
  thirty zero rows below, the last 30 rows of wd by sixty-three zero rows above; w4 and wd are cut into their row
  blocks; (wf ‖ ws) and (bf ‖ bs) are joined; and every matrix is rounded to a narrower float format, which over the
  extended reals changes nothing. A padding by a zero value is "padRows", a cut of rows is "rows", a join along the
  columns is "joinCols", a join of two vectors is "joinRow".
-/
import proofs.«155531_j78477642432658_2_alg».proof.Proof.Gen.KernelIdeal.Frame
import proofs.«155531_j78477642432658_2_alg».proof.Proof.KernelLayers
import Idealize.ShloMosaic.Lib.KernelVsHost

set_option maxRecDepth 16384

noncomputable section

namespace Cert.Nerf.Host

open Idealize.ShloMosaic Idealize.ShloMosaic.TcCoe Idealize.ShloMosaic.ValueIdx Cert.Lib.DenseLayer Cert.Nerf Cert.Nerf.Body
open Cert.KernelIdeal Cert.KernelIdeal.Gen

/-! ## The host's array operations read as the network's -/

/-- An array placed at rows lo … of an m-row array of a padding value that is zero. -/
theorem pad_eq_padRows {k N : Nat} (lo hi m : Nat) (x : Mat k N) {u : Shape} (v : u.Idx → EReal)
    (h : (⟨2, ![k, N]⟩ : Shape).Pads ![lo, 0] ![hi, 0] ![0, 0] ⟨2, ![m, N]⟩) (hu : 0 < u.numel)
    (hv : v (Shape.Idx.first hu) = 0) :
    (pad ⟨2, ![m, N]⟩ ![lo, 0] ![hi, 0] ![0, 0] x v h hu : (⟨2, ![m, N]⟩ : Shape).Idx → EReal) = padRows lo m x := by
  funext i
  obtain ⟨p, q, rfl⟩ : ∃ (p : Fin m) (q : Fin N), i = ix2 p q := ⟨i 0, i 1, eq_ix2 i⟩
  unfold padRows
  by_cases hp : lo ≤ p.val ∧ p.val - lo < k
  · rw [dif_pos (show lo ≤ ((ix2 p q : (⟨2, ![m, N]⟩ : Shape).Idx) 0).val ∧ ((ix2 p q : (⟨2, ![m, N]⟩ : Shape).Idx) 0).val - lo < k from hp)]
    refine pad_apply_of_inside ![lo, 0] ![hi, 0] ![0, 0] x v h hu (ix2 p q) (ix2 ⟨p.val - lo, hp.2⟩ q) (fun a => ?_)
    match a with
    | ⟨0, _⟩ =>
      show p.val = lo + (p.val - lo) * (0 + 1)
      have := hp.1
      omega
    | ⟨1, _⟩ =>
      show q.val = 0 + q.val * (0 + 1)
      omega
  · rw [dif_neg (show ¬ (lo ≤ ((ix2 p q : (⟨2, ![m, N]⟩ : Shape).Idx) 0).val ∧ ((ix2 p q : (⟨2, ![m, N]⟩ : Shape).Idx) 0).val - lo < k) from hp)]
    refine (pad_apply_of_not_inside ![lo, 0] ![hi, 0] ![0, 0] x v h hu (ix2 p q) (0 : Fin 2) (fun hin => hp ?_)).trans hv
    have h1 : lo ≤ p.val := hin.1
    have h2 : (p.val - lo) / (0 + 1) < k := hin.2.2
    rw [Nat.zero_add, Nat.div_one] at h2
    exact ⟨h1, h2⟩

/-- The integer zero converted to a float is zero. -/
theorem sitofp_zero_first (hu : 0 < S_.numel) :
    (sitofp (F := Ideal) .f32 (constantI S_ 32 0#32) : S_.Idx → EReal) (Shape.Idx.first hu) = 0 := by
  show (((0#32 : BitVec 32).toInt : ℝ) : EReal) = 0
  rw [BitVec.toInt_zero, Int.cast_zero, EReal.coe_zero]

/-- A cut of k rows from row o. -/
theorem slice_rows {m N : Nat} (o k : Nat) (h : o + k ≤ m) (W : Mat m N)
    (hs : (⟨2, ![m, N]⟩ : Shape).Slices ![o, 0] ⟨2, ![k, N]⟩) :
    extractStridedSlice ⟨2, ![k, N]⟩ ![o, 0] W hs = rows o k h W := by
  funext i
  obtain ⟨p, q, rfl⟩ : ∃ (p : Fin k) (q : Fin N), i = ix2 p q := ⟨i 0, i 1, eq_ix2 i⟩
  exact slice2_axis0_apply o W hs p q _ rfl

/-- Two vectors laid end to end. -/
theorem concat_row {a b : Nat} (k : Nat) (hk : k = a + b) (u : Row a) (v : Row b)
    (h : Shape.Concatenates [(⟨1, ![a]⟩ : Shape), ⟨1, ![b]⟩] ⟨1, ![k]⟩ 0) :
    concatenate ⟨1, ![k]⟩ 0 [⟨⟨1, ![a]⟩, u⟩, ⟨⟨1, ![b]⟩, v⟩] h = joinRow k hk u v := by
  funext i
  obtain ⟨q, rfl⟩ : ∃ q : Fin k, i = ix1 q := ⟨i 0, eq_ix1 i⟩
  unfold joinRow
  by_cases hq : q.val < a
  · rw [dif_pos (show ((ix1 q : (⟨1, ![k]⟩ : Shape).Idx) 0).val < a from hq)]
    refine concatenate_pair_apply_left (0 : Fin 1) u v h (ix1 q) rfl (ix1 ⟨q.val, hq⟩) (fun ax => ?_)
    match ax with
    | ⟨0, _⟩ => rfl
  · rw [dif_neg (show ¬ ((ix1 q : (⟨1, ![k]⟩ : Shape).Idx) 0).val < a from hq)]
    have hq' : q.val - a < b := by have := q.isLt; omega
    refine concatenate_pair_apply_right (0 : Fin 1) u v h (ix1 q) rfl rfl (ix1 ⟨q.val - a, hq'⟩) (fun ax hax => ?_) ?_
    · match ax with
      | ⟨0, _⟩ => exact absurd rfl hax
    · show q.val - a + a = q.val
      omega

/-! ## The buffers as the kernel finds them -/

variable (m : (ℓ : Loc nD τ sig) → Buf (Elt Ideal) ℓ) (c : Dev nD)

/-- Opens the buffers' contents after the host operations: each operation's result at its own buffer is its function's
    value, at any other buffer what was there. -/
local macro "host_term" : tactic =>
  `(tactic| (dsimp only [Gen.V]
             simp only [Gen.hostOps0, Gen.hostOps0_1, Gen.hostOps0_2, Gen.hostOps0_3, Gen.hostOps0_4, Gen.hostOps0_5, Gen.hostOps0_6,
               List.flatten_cons, List.flatten_nil, List.append_nil, List.cons_append, List.nil_append]
             after_results))

/-- w0 over thirty zero rows. -/
theorem V_v1 : (V m c main_v1 : S93x256.Idx → EReal) = padRows 0 93 (m ((c : Thread nD τ).loc main_arg1) : Mat 63 256) := by
  host_term
  exact pad_eq_padRows 0 30 93 _ _ pads_S63x256_S93x256_0300_000 h_S_ (sitofp_zero_first h_S_)

/-- The first 63 rows of w4 over thirty zero rows. -/
theorem V_v4 : (V m c main_v4 : S93x256.Idx → EReal)
    = padRows 0 93 (rows 0 63 (by decide) (m ((c : Thread nD τ).loc main_arg9) : Mat 319 256)) := by
  host_term
  refine (pad_eq_padRows 0 30 93 _ _ pads_S63x256_S93x256_0300_000 h_S_ (sitofp_zero_first h_S_)).trans ?_
  exact congrArg (padRows 0 93) (slice_rows 0 63 (by decide) _ slices_S319x256_S63x256_0_0)

/-- The last 256 rows of w4. -/
theorem V_v6 : (V m c main_v6 : S256x256.Idx → EReal) = rows 63 256 (by decide) (m ((c : Thread nD τ).loc main_arg9) : Mat 319 256) := by
  host_term
  exact slice_rows 63 256 (by decide) _ slices_S319x256_S256x256_63_0

/-- The first 256 rows of wd. -/
theorem V_v8 : (V m c main_v8 : S256x128.Idx → EReal) = rows 0 256 (by decide) (m ((c : Thread nD τ).loc main_arg19) : Mat 286 128) := by
  host_term
  exact slice_rows 0 256 (by decide) _ slices_S286x128_S256x128_0_0

/-- Sixty-three zero rows over the last 30 rows of wd. -/
theorem V_v11 : (V m c main_v11 : S93x128.Idx → EReal)
    = padRows 63 93 (rows 256 30 (by decide) (m ((c : Thread nD τ).loc main_arg19) : Mat 286 128)) := by
  host_term
  refine (pad_eq_padRows 63 0 93 _ _ pads_S30x128_S93x128_6300_000 h_S_ (sitofp_zero_first h_S_)).trans ?_
  exact congrArg (padRows 63 93) (slice_rows 256 30 (by decide) _ slices_S286x128_S30x128_256_0)

/-- (wf ‖ ws). -/
theorem V_v13 : (V m c main_v13 : S256x257.Idx → EReal)
    = joinCols 257 rfl (m ((c : Thread nD τ).loc main_arg17) : Mat 256 256) (m ((c : Thread nD τ).loc main_arg21) : Mat 256 1) := by
  host_term
  exact concat_cols 257 rfl _ _ concatenates_S256x256_S256x1_S256x257_d1

/-- (bf ‖ bs). -/
theorem V_v14 : (V m c main_v14 : S257.Idx → EReal)
    = joinRow 257 rfl (m ((c : Thread nD τ).loc main_arg18) : Row 256) (m ((c : Thread nD τ).loc main_arg22) : Row 1) := by
  host_term
  exact concat_row 257 rfl _ _ concatenates_S256_S1_S257_d0

/-- The weight matrices that are only rounded are themselves. -/
theorem V_v15 : (V m c main_v15 : S256x256.Idx → EReal) = m ((c : Thread nD τ).loc main_arg3) := by
  host_term
  rfl
theorem V_v16 : (V m c main_v16 : S256x256.Idx → EReal) = m ((c : Thread nD τ).loc main_arg5) := by
  host_term
  rfl
theorem V_v17 : (V m c main_v17 : S256x256.Idx → EReal) = m ((c : Thread nD τ).loc main_arg7) := by
  host_term
  rfl
theorem V_v18 : (V m c main_v18 : S256x256.Idx → EReal) = m ((c : Thread nD τ).loc main_arg11) := by
  host_term
  rfl
theorem V_v19 : (V m c main_v19 : S256x256.Idx → EReal) = m ((c : Thread nD τ).loc main_arg13) := by
  host_term
  rfl
theorem V_v20 : (V m c main_v20 : S256x256.Idx → EReal) = m ((c : Thread nD τ).loc main_arg15) := by
  host_term
  rfl
theorem V_v21 : (V m c main_v21 : S128x3.Idx → EReal) = m ((c : Thread nD τ).loc main_arg23) := by
  host_term
  rfl

end Cert.Nerf.Host

end
-- ==== Proof.NerfLaw.lean ====
/-
  The rearranged network is the network, and an entry of the network reads one row of the input.

  Part 1 (K_eq_G). Three facts about finite sums of extended reals, none of which needs finiteness:
    (a) a product of a whole row with a matrix whose rows outside a block are zero is the product of the matching slice of
        the row with the block: the terms outside the block are x · 0 = 0;
    (b) a product of a joined row (u ‖ v) with a matrix is the sum of the products of u and v with the two row blocks of
        the matrix: the sum over the joined index splits into the sum over the first and the sum over the second part;
    (c) a layer with joined weight matrix (Wl ‖ Wr) and joined bias (bl ‖ br), cut at the joint, is the two layers:
        column q of the joined matrix is column q of Wl or column q − a of Wr.
  Part 2 (G_rows). "Row p of A is row r of B" is preserved by a layer, a column slice, a join along the columns and an
  entrywise function; hence by the whole network.
-/
import proofs.«155531_j78477642432658_2_alg».proof.Proof.NerfSpec

noncomputable section

open scoped BigOperators

namespace Cert.Nerf

open Idealize.ShloMosaic Idealize.ShloMosaic.ValueIdx Cert.Lib.DenseLayer

variable {n : Nat}

/-! ## Entries of the building blocks -/

/-- Two entries of an array at indices with equal coordinates. -/
theorem entry_congr {a b : Nat} (Z : Mat a b) {p p' : Fin a} {q q' : Fin b} (hp : p.val = p'.val) (hq : q.val = q'.val) :
    Z (ix2 p q) = Z (ix2 p' q') := by
  obtain rfl : p = p' := Fin.ext hp
  obtain rfl : q = q' := Fin.ext hq
  rfl

theorem prod_apply {K N : Nat} (Y : Mat n K) (W : Mat K N) (p : Fin n) (q : Fin N) :
    prod Y W (ix2 p q) = ∑ k : Fin K, Y (ix2 p k) * W (ix2 k q) := rfl

theorem cols_apply {m : Nat} (o c : Nat) (h : o + c ≤ m) (Z : Mat n m) (p : Fin n) (q : Fin c) :
    cols o c h Z (ix2 p q) = Z (ix2 p ⟨o + q.val, by have h1 := q.isLt; omega⟩) := rfl

theorem rows_apply {m N : Nat} (o c : Nat) (h : o + c ≤ m) (W : Mat m N) (p : Fin c) (q : Fin N) :
    rows o c h W (ix2 p q) = W (ix2 ⟨o + p.val, by have h1 := p.isLt; omega⟩ q) := rfl

theorem padRows_in {c N : Nat} (lo m : Nat) (W : Mat c N) (k : Fin m) (q : Fin N) (h1 : lo ≤ k.val) (h2 : k.val - lo < c) :
    padRows lo m W (ix2 k q) = W (ix2 ⟨k.val - lo, h2⟩ q) := dif_pos ⟨h1, h2⟩

theorem padRows_out {c N : Nat} (lo m : Nat) (W : Mat c N) (k : Fin m) (q : Fin N) (h : ¬ (lo ≤ k.val ∧ k.val - lo < c)) :
    padRows lo m W (ix2 k q) = 0 := dif_neg h

theorem joinCols_left {a b : Nat} (c : Nat) (hc : c = a + b) (L : Mat n a) (R : Mat n b) (p : Fin n) (q : Fin c)
    (h : q.val < a) : joinCols c hc L R (ix2 p q) = L (ix2 p ⟨q.val, h⟩) := dif_pos h

theorem joinCols_right {a b : Nat} (c : Nat) (hc : c = a + b) (L : Mat n a) (R : Mat n b) (p : Fin n) (q : Fin c)
    (h : ¬ q.val < a) :
    joinCols c hc L R (ix2 p q) = R (ix2 p ⟨q.val - a, by have h1 := q.isLt; omega⟩) := dif_neg h

theorem row_apply {N : Nat} (u : Row N) (q : Fin N) : row u (ix2 (0 : Fin 1) q) = u (ix1 q) := rfl

theorem joinRow_left {a b : Nat} (c : Nat) (hc : c = a + b) (u : Row a) (v : Row b) (q : Fin c) (h : q.val < a) :
    joinRow c hc u v (ix1 q) = u (ix1 ⟨q.val, h⟩) := dif_pos h

theorem joinRow_right {a b : Nat} (c : Nat) (hc : c = a + b) (u : Row a) (v : Row b) (q : Fin c) (h : ¬ q.val < a) :
    joinRow c hc u v (ix1 q) = v (ix1 ⟨q.val - a, by have h1 := q.isLt; omega⟩) := dif_neg h

theorem affineRelu_eq_prod {K N : Nat} (Y : Mat n K) (W : Mat K N) (B : Mat 1 N) (i : (⟨2, ![n, N]⟩ : Shape).Idx) :
    affineRelu Y W B i
      = max (prod Y W i + B (ix2 (n0 := 1) (n1 := N) (0 : Fin 1) (i 1))) (Ideal.ofBits .f32 0x00000000#32) := rfl

/-! ## (a) A product with a matrix that is zero outside a block of rows -/

/-- The block at the top: the whole row against (w over zeros) is the first a columns of the row against w. -/
theorem prod_padRows_head {a N : Nat} (b m : Nat) (hm : m = a + b) (h : 0 + a ≤ m) (X : Mat n m) (w : Mat a N) :
    prod X (padRows 0 m w) = prod (cols 0 a h X) w := by
  subst hm
  funext i
  obtain ⟨p, q, rfl⟩ : ∃ (p : Fin n) (q : Fin N), i = ix2 p q := ⟨i 0, i 1, eq_ix2 i⟩
  rw [prod_apply, prod_apply, Fin.sum_univ_add]
  have h2 : ∑ k : Fin b, X (ix2 p (Fin.natAdd a k)) * padRows 0 (a + b) w (ix2 (Fin.natAdd a k) q) = 0 :=
    Finset.sum_eq_zero fun k _ => by
      rw [padRows_out 0 (a + b) w (Fin.natAdd a k) q (by simp), mul_zero]
  rw [h2, add_zero]
  refine Finset.sum_congr rfl fun k _ => ?_
  rw [padRows_in 0 (a + b) w (Fin.castAdd b k) q (Nat.zero_le _) (by simp), cols_apply]
  exact congrArg₂ (· * ·) (entry_congr X rfl (by simp)) (entry_congr w (by simp) rfl)

/-- The block at the bottom: the whole row against (zeros over v) is the last b columns of the row against v. -/
theorem prod_padRows_tail {b N : Nat} (a m : Nat) (hm : m = a + b) (h : a + b ≤ m) (X : Mat n m) (v : Mat b N) :
    prod X (padRows a m v) = prod (cols a b h X) v := by
  subst hm
  funext i
  obtain ⟨p, q, rfl⟩ : ∃ (p : Fin n) (q : Fin N), i = ix2 p q := ⟨i 0, i 1, eq_ix2 i⟩
  rw [prod_apply, prod_apply, Fin.sum_univ_add]
  have h1 : ∑ k : Fin a, X (ix2 p (Fin.castAdd b k)) * padRows a (a + b) v (ix2 (Fin.castAdd b k) q) = 0 :=
    Finset.sum_eq_zero fun k _ => by
      rw [padRows_out a (a + b) v (Fin.castAdd b k) q (by have h3 := k.isLt; simp only [Fin.val_castAdd]; omega), mul_zero]
  rw [h1, zero_add]
  refine Finset.sum_congr rfl fun k _ => ?_
  rw [padRows_in a (a + b) v (Fin.natAdd a k) q (by simp) (by simp), cols_apply]
  exact congrArg₂ (· * ·) (entry_congr X rfl rfl) (entry_congr v (by simp) rfl)

/-! ## (b) A product with a joined row -/

/-- (u ‖ v) · W = u · (first a rows of W) + v · (last b rows of W). -/
theorem prod_joinCols {a b N : Nat} (c : Nat) (hc : c = a + b) (h0 : 0 + a ≤ c) (h1 : a + b ≤ c) (L : Mat n a) (R : Mat n b)
    (W : Mat c N) :
    prod (joinCols c hc L R) W = fun i => prod L (rows 0 a h0 W) i + prod R (rows a b h1 W) i := by
  subst hc
  funext i
  obtain ⟨p, q, rfl⟩ : ∃ (p : Fin n) (q : Fin N), i = ix2 p q := ⟨i 0, i 1, eq_ix2 i⟩
  show prod (joinCols (a + b) rfl L R) W (ix2 p q) = prod L (rows 0 a h0 W) (ix2 p q) + prod R (rows a b h1 W) (ix2 p q)
  rw [prod_apply, prod_apply, prod_apply, Fin.sum_univ_add]
  refine congrArg₂ (· + ·) (Finset.sum_congr rfl fun k _ => ?_) (Finset.sum_congr rfl fun k _ => ?_)
  · rw [joinCols_left (a + b) rfl L R p (Fin.castAdd b k) (by simp), rows_apply]
    exact congrArg₂ (· * ·) (entry_congr L rfl rfl) (entry_congr W (by simp) rfl)
  · rw [joinCols_right (a + b) rfl L R p (Fin.natAdd a k) (by simp), rows_apply]
    exact congrArg₂ (· * ·) (entry_congr R rfl (by simp)) (entry_congr W rfl rfl)

/-! ## Layers -/

/-- Two layers with the same product and the same bias row are the same. -/
theorem affineRelu_congr_prod {K K' N : Nat} (Y : Mat n K) (W : Mat K N) (Y' : Mat n K') (W' : Mat K' N) (B : Mat 1 N)
    (h : prod Y W = prod Y' W') : affineRelu Y W B = affineRelu Y' W' B := by
  funext i
  rw [affineRelu_eq_prod, affineRelu_eq_prod, h]

/-- A layer fed by two products is the layer of the product that is their sum. -/
theorem affine2Relu_of_prod {K₁ K₂ K N : Nat} (X : Mat n K₁) (A : Mat K₁ N) (Y : Mat n K₂) (B : Mat K₂ N) (Z : Mat n K)
    (W : Mat K N) (b : Mat 1 N) (h : prod Z W = fun i => prod X A i + prod Y B i) :
    affine2Relu X A Y B b = affineRelu Z W b := by
  funext i
  rw [affineRelu_eq_prod, h]
  rfl

/-- The first layer on the whole row against the zero-extended matrix. -/
theorem affineRelu_padRows_head {a N : Nat} (b m : Nat) (hm : m = a + b) (h : 0 + a ≤ m) (X : Mat n m) (w : Mat a N)
    (B : Mat 1 N) : affineRelu X (padRows 0 m w) B = affineRelu (cols 0 a h X) w B :=
  affineRelu_congr_prod _ _ _ _ B (prod_padRows_head b m hm h X w)

/-- The layer that reads (x[0:a] ‖ u): the whole row against the zero-extended top block plus u against the bottom block. -/
theorem affine2Relu_head_join {a b N : Nat} (r m c : Nat) (hm : m = a + r) (hc : c = a + b) (h : 0 + a ≤ m) (h0 : 0 + a ≤ c)
    (h1 : a + b ≤ c) (X : Mat n m) (u : Mat n b) (W : Mat c N) (B : Mat 1 N) :
    affine2Relu X (padRows 0 m (rows 0 a h0 W)) u (rows a b h1 W) B = affineRelu (joinCols c hc (cols 0 a h X) u) W B :=
  affine2Relu_of_prod _ _ _ _ _ _ B (by rw [prod_joinCols c hc h0 h1, prod_padRows_head r m hm h])

/-- The layer that reads (u ‖ x[a':a'+b]): u against the top block plus the whole row against the zero-extended bottom block. -/
theorem affine2Relu_join_tail {a b N : Nat} (o m c : Nat) (hm : m = o + b) (hc : c = a + b) (h : o + b ≤ m) (h0 : 0 + a ≤ c)
    (h1 : a + b ≤ c) (X : Mat n m) (u : Mat n a) (W : Mat c N) (B : Mat 1 N) :
    affine2Relu u (rows 0 a h0 W) X (padRows o m (rows a b h1 W)) B = affineRelu (joinCols c hc u (cols o b h X)) W B :=
  affine2Relu_of_prod _ _ _ _ _ _ B (by rw [prod_joinCols c hc h0 h1, prod_padRows_tail o m hm h])

/-! ## (c) A layer with joined weights and bias, cut at the joint -/

theorem cols_affine_join_left {K a b : Nat} (c : Nat) (hc : c = a + b) (h : 0 + a ≤ c) (Y : Mat n K) (Wl : Mat K a)
    (Wr : Mat K b) (bl : Row a) (br : Row b) :
    cols 0 a h (affine Y (joinCols c hc Wl Wr) (row (joinRow c hc bl br))) = affine Y Wl (row bl) := by
  funext i
  obtain ⟨p, q, rfl⟩ : ∃ (p : Fin n) (q : Fin a), i = ix2 p q := ⟨i 0, i 1, eq_ix2 i⟩
  rw [cols_apply, affine_apply, affine_apply]
  have hq : (0 + q.val) < a := by have h1 := q.isLt; omega
  refine congrArg₂ (· + ·) (Finset.sum_congr rfl fun k _ => ?_) ?_
  · rw [joinCols_left c hc Wl Wr k _ hq]
    exact congrArg (_ * ·) (entry_congr Wl rfl (Nat.zero_add _))
  · rw [row_apply, row_apply, joinRow_left c hc bl br _ hq]
    exact congrArg (fun t => bl (ix1 t)) (Fin.ext (Nat.zero_add _))

theorem cols_affine_join_right {K a b : Nat} (c : Nat) (hc : c = a + b) (h : a + b ≤ c) (Y : Mat n K) (Wl : Mat K a)
    (Wr : Mat K b) (bl : Row a) (br : Row b) :
    cols a b h (affine Y (joinCols c hc Wl Wr) (row (joinRow c hc bl br))) = affine Y Wr (row br) := by
  funext i
  obtain ⟨p, q, rfl⟩ : ∃ (p : Fin n) (q : Fin b), i = ix2 p q := ⟨i 0, i 1, eq_ix2 i⟩
  rw [cols_apply, affine_apply, affine_apply]
  have hq : ¬ (a + q.val) < a := by omega
  refine congrArg₂ (· + ·) (Finset.sum_congr rfl fun k _ => ?_) ?_
  · rw [joinCols_right c hc Wl Wr k _ hq]
    exact congrArg (_ * ·) (entry_congr Wr rfl (Nat.add_sub_cancel_left _ _))
  · rw [row_apply, row_apply, joinRow_right c hc bl br _ hq]
    exact congrArg (fun t => br (ix1 t)) (Fin.ext (Nat.add_sub_cancel_left _ _))

/-! ## Part 1: the rearranged network at the rearranged weights is the network -/

theorem trunkA'_eq (X : Mat n 93) (w0 : Mat 63 256) (b0 : Row 256) (w1 : Mat 256 256) (b1 : Row 256) (w2 : Mat 256 256)
    (b2 : Row 256) (w3 : Mat 256 256) (b3 : Row 256) :
    trunkA' X (padRows 0 93 w0) b0 w1 b1 w2 b2 w3 b3 = trunkA X w0 b0 w1 b1 w2 b2 w3 b3 := by
  unfold trunkA' trunkA
  rw [affineRelu_padRows_head 30 93 rfl (by decide) X w0 (row b0)]

theorem trunkB'_eq (X : Mat n 93) (h4 : Mat n 256) (w4 : Mat 319 256) (b4 : Row 256) (w5 : Mat 256 256) (b5 : Row 256)
    (w6 : Mat 256 256) (b6 : Row 256) (w7 : Mat 256 256) (b7 : Row 256) :
    trunkB' X h4 (padRows 0 93 (rows 0 63 (by decide) w4)) (rows 63 256 (by decide) w4) b4 w5 b5 w6 b6 w7 b7
      = trunkB X h4 w4 b4 w5 b5 w6 b6 w7 b7 := by
  unfold trunkB' trunkB
  rw [affine2Relu_head_join 30 93 319 rfl rfl (by decide) (by decide) (by decide) X h4 w4 (row b4)]

theorem heads'_eq (X : Mat n 93) (h8 : Mat n 256) (wf : Mat 256 256) (bf : Row 256) (wd : Mat 286 128) (bd : Row 128)
    (ws : Mat 256 1) (bs : Row 1) (wr : Mat 128 3) (br : Row 3) :
    heads' X (fused h8 (joinCols 257 rfl wf ws) (joinRow 257 rfl bf bs)) (rows 0 256 (by decide) wd)
        (padRows 63 93 (rows 256 30 (by decide) wd)) bd wr br
      = heads X h8 wf bf wd bd ws bs wr br := by
  unfold heads' heads colourPre fused
  rw [cols_affine_join_left 257 rfl (by decide) h8 wf ws bf bs, cols_affine_join_right 257 rfl (by decide) h8 wf ws bf bs,
    affine2Relu_join_tail 63 93 286 rfl rfl (by decide) (by decide) (by decide) X (affine h8 wf (row bf)) wd (row bd)]

/-- THE REARRANGED NETWORK AT THE REARRANGED WEIGHTS IS THE NETWORK. -/
theorem K_eq_G (X : Mat n 93) (w0 : Mat 63 256) (b0 : Row 256) (w1 : Mat 256 256) (b1 : Row 256) (w2 : Mat 256 256)
    (b2 : Row 256) (w3 : Mat 256 256) (b3 : Row 256) (w4 : Mat 319 256) (b4 : Row 256) (w5 : Mat 256 256) (b5 : Row 256)
    (w6 : Mat 256 256) (b6 : Row 256) (w7 : Mat 256 256) (b7 : Row 256) (wf : Mat 256 256) (bf : Row 256)
    (wd : Mat 286 128) (bd : Row 128) (ws : Mat 256 1) (bs : Row 1) (wr : Mat 128 3) (br : Row 3) :
    K X (padRows 0 93 w0) b0 w1 b1 w2 b2 w3 b3 (padRows 0 93 (rows 0 63 (by decide) w4)) (rows 63 256 (by decide) w4) b4
        w5 b5 w6 b6 w7 b7 (joinCols 257 rfl wf ws) (joinRow 257 rfl bf bs) (rows 0 256 (by decide) wd)
        (padRows 63 93 (rows 256 30 (by decide) wd)) bd wr br
      = G X w0 b0 w1 b1 w2 b2 w3 b3 w4 b4 w5 b5 w6 b6 w7 b7 wf bf wd bd ws bs wr br := by
  unfold K G
  rw [trunkA'_eq, trunkB'_eq, heads'_eq]

/-! ## Part 2: an entry of the network reads one row of the input -/

variable {M : Nat}

theorem affineRelu_row {K N : Nat} (X : Mat n K) (x : Mat M K) (W : Mat K N) (B : Mat 1 N) (p : Fin M) (r : Fin n)
    (h : ∀ k : Fin K, x (ix2 p k) = X (ix2 r k)) :
    ∀ q : Fin N, affineRelu x W B (ix2 p q) = affineRelu X W B (ix2 r q) :=
  fun q => affineRelu_entry X x W W B B p r q h (fun _ => rfl) rfl

theorem affine_row {K N : Nat} (X : Mat n K) (x : Mat M K) (W : Mat K N) (B : Mat 1 N) (p : Fin M) (r : Fin n)
    (h : ∀ k : Fin K, x (ix2 p k) = X (ix2 r k)) :
    ∀ q : Fin N, affine x W B (ix2 p q) = affine X W B (ix2 r q) :=
  fun q => affine_entry X x W W B B p r q h (fun _ => rfl) rfl

theorem cols_row {m : Nat} (o c : Nat) (hoc : o + c ≤ m) (Z : Mat n m) (z : Mat M m) (p : Fin M) (r : Fin n)
    (h : ∀ k : Fin m, z (ix2 p k) = Z (ix2 r k)) :
    ∀ q : Fin c, cols o c hoc z (ix2 p q) = cols o c hoc Z (ix2 r q) :=
  fun _ => h _

theorem joinCols_row {a b : Nat} (c : Nat) (hc : c = a + b) (L : Mat n a) (R : Mat n b) (l : Mat M a) (t : Mat M b)
    (p : Fin M) (r : Fin n) (hl : ∀ k : Fin a, l (ix2 p k) = L (ix2 r k)) (ht : ∀ k : Fin b, t (ix2 p k) = R (ix2 r k)) :
    ∀ q : Fin c, joinCols c hc l t (ix2 p q) = joinCols c hc L R (ix2 r q) := by
  intro q
  by_cases h : q.val < a
  · rw [joinCols_left c hc l t p q h, joinCols_left c hc L R r q h]
    exact hl _
  · rw [joinCols_right c hc l t p q h, joinCols_right c hc L R r q h]
    exact ht _

theorem sigm_row {a : Nat} (Z : Mat n a) (z : Mat M a) (p : Fin M) (r : Fin n)
    (h : ∀ k : Fin a, z (ix2 p k) = Z (ix2 r k)) : ∀ q : Fin a, sigm z (ix2 p q) = sigm Z (ix2 r q) :=
  fun q => congrArg Ideal.logistic (h q)

theorem trunkA_row (X : Mat n 93) (x : Mat M 93) (p : Fin M) (r : Fin n) (hrow : ∀ k : Fin 93, x (ix2 p k) = X (ix2 r k))
    (w0 : Mat 63 256) (b0 : Row 256) (w1 : Mat 256 256) (b1 : Row 256) (w2 : Mat 256 256) (b2 : Row 256) (w3 : Mat 256 256)
    (b3 : Row 256) :
    ∀ q : Fin 256, trunkA x w0 b0 w1 b1 w2 b2 w3 b3 (ix2 p q) = trunkA X w0 b0 w1 b1 w2 b2 w3 b3 (ix2 r q) := by
  unfold trunkA
  exact affineRelu_row _ _ _ _ p r (affineRelu_row _ _ _ _ p r (affineRelu_row _ _ _ _ p r (affineRelu_row _ _ _ _ p r
    (cols_row 0 63 _ X x p r hrow))))

theorem trunkB_row (X : Mat n 93) (x : Mat M 93) (H : Mat n 256) (h : Mat M 256) (p : Fin M) (r : Fin n)
    (hrow : ∀ k : Fin 93, x (ix2 p k) = X (ix2 r k)) (hh : ∀ k : Fin 256, h (ix2 p k) = H (ix2 r k))
    (w4 : Mat 319 256) (b4 : Row 256) (w5 : Mat 256 256) (b5 : Row 256) (w6 : Mat 256 256) (b6 : Row 256) (w7 : Mat 256 256)
    (b7 : Row 256) :
    ∀ q : Fin 256, trunkB x h w4 b4 w5 b5 w6 b6 w7 b7 (ix2 p q) = trunkB X H w4 b4 w5 b5 w6 b6 w7 b7 (ix2 r q) := by
  unfold trunkB
  exact affineRelu_row _ _ _ _ p r (affineRelu_row _ _ _ _ p r (affineRelu_row _ _ _ _ p r (affineRelu_row _ _ _ _ p r
    (joinCols_row 319 rfl _ _ _ _ p r (cols_row 0 63 _ X x p r hrow) hh))))

theorem heads_row (X : Mat n 93) (x : Mat M 93) (H : Mat n 256) (h : Mat M 256) (p : Fin M) (r : Fin n)
    (hrow : ∀ k : Fin 93, x (ix2 p k) = X (ix2 r k)) (hh : ∀ k : Fin 256, h (ix2 p k) = H (ix2 r k))
    (wf : Mat 256 256) (bf : Row 256) (wd : Mat 286 128) (bd : Row 128) (ws : Mat 256 1) (bs : Row 1) (wr : Mat 128 3)
    (br : Row 3) :
    ∀ q : Fin 4, heads x h wf bf wd bd ws bs wr br (ix2 p q) = heads X H wf bf wd bd ws bs wr br (ix2 r q) := by
  unfold heads
  exact joinCols_row 4 rfl _ _ _ _ p r
    (sigm_row _ _ p r (affine_row _ _ _ _ p r (affineRelu_row _ _ _ _ p r
      (joinCols_row 286 rfl _ _ _ _ p r (affine_row _ _ _ _ p r hh) (cols_row 63 30 _ X x p r hrow)))))
    (affine_row _ _ _ _ p r hh)

/-- AN ENTRY OF THE NETWORK READS ONE ROW OF THE INPUT. -/
theorem G_rows (X : Mat n 93) (x : Mat M 93) (p : Fin M) (r : Fin n) (hrow : ∀ k : Fin 93, x (ix2 p k) = X (ix2 r k))
    (w0 : Mat 63 256) (b0 : Row 256) (w1 : Mat 256 256) (b1 : Row 256) (w2 : Mat 256 256)
    (b2 : Row 256) (w3 : Mat 256 256) (b3 : Row 256) (w4 : Mat 319 256) (b4 : Row 256) (w5 : Mat 256 256) (b5 : Row 256)
    (w6 : Mat 256 256) (b6 : Row 256) (w7 : Mat 256 256) (b7 : Row 256) (wf : Mat 256 256) (bf : Row 256)
    (wd : Mat 286 128) (bd : Row 128) (ws : Mat 256 1) (bs : Row 1) (wr : Mat 128 3) (br : Row 3) (q : Fin 4) :
    G x w0 b0 w1 b1 w2 b2 w3 b3 w4 b4 w5 b5 w6 b6 w7 b7 wf bf wd bd ws bs wr br (ix2 p q)
      = G X w0 b0 w1 b1 w2 b2 w3 b3 w4 b4 w5 b5 w6 b6 w7 b7 wf bf wd bd ws bs wr br (ix2 r q) := by
  unfold G
  exact heads_row X x _ _ p r hrow
    (trunkB_row X x _ _ p r hrow (trunkA_row X x p r hrow w0 b0 w1 b1 w2 b2 w3 b3) w4 b4 w5 b5 w6 b6 w7 b7)
    wf bf wd bd ws bs wr br q

end Cert.Nerf

end
-- ==== Proof.KernelValue.lean ====
/-
  The kernel's result array: every 2048-row block of it is the network of the same 2048 rows of the input.

  Grid point `t` loads rows `2048·t … 2048·t + 2047` of the input and, whole, every weight array as the host operations in
  front of the kernel left it (zero-extended, cut or joined copies of the parameters); it stores the rearranged network of
  those, which is the network `G` of the parameters themselves on that block of rows; an entry of `G` reads one input row only,
  so the block is the block of `G` of the whole input; the 128 blocks tile the 262144 rows.
-/
import proofs.«155531_j78477642432658_2_alg».proof.Proof.Gen.KernelIdeal.Value
import proofs.«155531_j78477642432658_2_alg».proof.Proof.KernelBlock
import proofs.«155531_j78477642432658_2_alg».proof.Proof.HostPrep
import proofs.«155531_j78477642432658_2_alg».proof.Proof.NerfLaw

noncomputable section

namespace Cert.Nerf.KernelValue

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Value Cert.Nerf

variable (m : (ℓ : Loc nD τ sig) → Buf (Elt Ideal) ℓ) (ρ : Dev nD → PrngReg)

/-- One point's stored block, over blocks that are the rearranged parameters and a block of input rows, at an entry. -/
theorem point_eq (x0 : Vec Ideal S2048x93 .f32) (x1 : Vec Ideal S93x256 .bf16) (x2 : Vec Ideal S256 .f32) (x3 : Vec Ideal S256x256 .bf16)
    (x4 : Vec Ideal S256 .f32) (x5 : Vec Ideal S256x256 .bf16) (x6 : Vec Ideal S256 .f32) (x7 : Vec Ideal S256x256 .bf16)
    (x8 : Vec Ideal S256 .f32) (x9 : Vec Ideal S93x256 .bf16) (x10 : Vec Ideal S256x256 .bf16) (x11 : Vec Ideal S256 .f32)
    (x12 : Vec Ideal S256x256 .bf16) (x13 : Vec Ideal S256 .f32) (x14 : Vec Ideal S256x256 .bf16) (x15 : Vec Ideal S256 .f32)
    (x16 : Vec Ideal S256x256 .bf16) (x17 : Vec Ideal S256 .f32) (x18 : Vec Ideal S256x257 .bf16) (x19 : Vec Ideal S257 .f32)
    (x20 : Vec Ideal S256x128 .bf16) (x21 : Vec Ideal S93x128 .bf16) (x22 : Vec Ideal S128 .f32) (x23 : Vec Ideal S128x3 .bf16)
    (x24 : Vec Ideal S3 .f32)
    (X : Mat 262144 93) (w0 : Mat 63 256) (b0 : Row 256) (w1 : Mat 256 256) (b1 : Row 256) (w2 : Mat 256 256) (b2 : Row 256)
    (w3 : Mat 256 256) (b3 : Row 256) (w4 : Mat 319 256) (b4 : Row 256) (w5 : Mat 256 256) (b5 : Row 256)
    (w6 : Mat 256 256) (b6 : Row 256) (w7 : Mat 256 256) (b7 : Row 256) (wf : Mat 256 256) (bf : Row 256)
    (wd : Mat 286 128) (bd : Row 128) (ws : Mat 256 1) (bs : Row 1) (wr : Mat 128 3) (br : Row 3)
    (h1 : x1 = padRows 0 93 w0) (h2 : x2 = b0) (h3 : x3 = w1) (h4 : x4 = b1) (h5 : x5 = w2) (h6 : x6 = b2) (h7 : x7 = w3)
    (h8 : x8 = b3) (h9 : x9 = padRows 0 93 (rows 0 63 (by decide) w4)) (h10 : x10 = rows 63 256 (by decide) w4) (h11 : x11 = b4)
    (h12 : x12 = w5) (h13 : x13 = b5) (h14 : x14 = w6) (h15 : x15 = b6) (h16 : x16 = w7) (h17 : x17 = b7)
    (h18 : x18 = joinCols 257 rfl wf ws) (h19 : x19 = joinRow 257 rfl bf bs) (h20 : x20 = rows 0 256 (by decide) wd)
    (h21 : x21 = padRows 63 93 (rows 256 30 (by decide) wd)) (h22 : x22 = bd) (h23 : x23 = wr) (h24 : x24 = br)
    (p : Fin 2048) (r : Fin 262144) (hrow : ∀ k : Fin 93, x0 (ix2 p k) = X (ix2 r k)) (q : Fin 4) :
    out0_25 x0 x1 x2 x3 x4 x5 x6 x7 x8 x9 x10 x11 x12 x13 x14 x15 x16 x17 x18 x19 x20 x21 x22 x23 x24 (ix2 p q)
      = G X w0 b0 w1 b1 w2 b2 w3 b3 w4 b4 w5 b5 w6 b6 w7 b7 wf bf wd bd ws bs wr br (ix2 r q) := by
  rw [h1, h2, h3, h4, h5, h6, h7, h8, h9, h10, h11, h12, h13, h14, h15, h16, h17, h18, h19, h20, h21, h22, h23, h24]
  exact (congrFun (Body.block_eq x0 _ _ _ _ _ _ _ _ _ _ _ _ _ _ _ _ _ _ _ _ _ _ _ _) (ix2 p q)).trans
    ((congrFun (K_eq_G x0 w0 b0 w1 b1 w2 b2 w3 b3 w4 b4 w5 b5 w6 b6 w7 b7 wf bf wd bd ws bs wr br) (ix2 p q)).trans
      (G_rows X x0 p r hrow w0 b0 w1 b1 w2 b2 w3 b3 w4 b4 w5 b5 w6 b6 w7 b7 wf bf wd bd ws bs wr br q))

/-- The printed index maps, decided over the 128 grid points: the input rows' window moves with the output's along the rows,
    both stay at column block 0, and every parameter window stays at block 0. -/
theorem idx_facts : ∀ t : Fin cfg0.N, win0_0.index t (0 : Fin 2) = win0_25.index t (0 : Fin 2)
    ∧ win0_0.index t (1 : Fin 2) = 0
    ∧ win0_25.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 2) = 0
    ∧ win0_14.index t (1 : Fin 2) = 0
    ∧ win0_15.index t (0 : Fin 1) = 0
    ∧ win0_16.index t (0 : Fin 2) = 0
    ∧ win0_16.index t (1 : Fin 2) = 0
    ∧ win0_17.index t (0 : Fin 1) = 0
    ∧ win0_18.index t (0 : Fin 2) = 0
    ∧ win0_18.index t (1 : Fin 2) = 0
    ∧ win0_19.index t (0 : Fin 1) = 0
    ∧ win0_20.index t (0 : Fin 2) = 0
    ∧ win0_20.index t (1 : Fin 2) = 0
    ∧ win0_21.index t (0 : Fin 2) = 0
    ∧ win0_21.index t (1 : Fin 2) = 0
    ∧ win0_22.index t (0 : Fin 1) = 0
    ∧ win0_23.index t (0 : Fin 2) = 0
    ∧ win0_23.index t (1 : Fin 2) = 0
    ∧ win0_24.index t (0 : Fin 1) = 0 :=
  (by decide +kernel : ∀ t : Fin grid0.N, _)

/-- Every row block is some point's. -/
theorem idx_onto : ∀ q0 : Fin 128, ∃ t : Fin cfg0.N, win0_25.index t = ![q0.val, 0] :=
  (by decide +kernel : ∀ q0 : Fin 128, ∃ t : Fin grid0.N, win0_25.index t = ![q0.val, 0])

/-- Window 1's block at any point is its whole array, whose contents the host operations fixed. -/
theorem iblk_1 (c : Dev nD) (t : Fin cfg0.N) : (iblk m c 1 t : S93x256.Idx → EReal) = padRows 0 93 (m ((c : Thread nD τ).loc main_arg1)) := by
  refine Eq.trans ?_ (Host.V_v1 m c)
  funext y
  show V m c main_v1 (((cfg0.win 1).blk t).view.emb y) = V m c main_v1 y
  have e := idx_facts t
  refine congrArg _ (funext fun a => Fin.ext ?_)
  match a with
    | ⟨0, _⟩ => show win0_1.index t (0 : Fin 2) * 93 + 1 * (y 0).val = (y 0).val; omega
    | ⟨1, _⟩ => show win0_1.index t (1 : Fin 2) * 256 + 1 * (y 1).val = (y 1).val; omega

/-- Window 2's block at any point is its whole array, whose contents the host operations fixed. -/
theorem iblk_2 (c : Dev nD) (t : Fin cfg0.N) : (iblk m c 2 t : S256.Idx → EReal) = (m ((c : Thread nD τ).loc main_arg2)) := by
  refine Eq.trans ?_ (V_main_arg2 m c)
  funext y
  show V m c main_arg2 (((cfg0.win 2).blk t).view.emb y) = V m c main_arg2 y
  have e := idx_facts t
  refine congrArg _ (funext fun a => Fin.ext ?_)
  match a with
    | ⟨0, _⟩ => show win0_2.index t (0 : Fin 1) * 256 + 1 * (y 0).val = (y 0).val; omega

/-- Window 3's block at any point is its whole array, whose contents the host operations fixed. -/
theorem iblk_3 (c : Dev nD) (t : Fin cfg0.N) : (iblk m c 3 t : S256x256.Idx → EReal) = (m ((c : Thread nD τ).loc main_arg3)) := by
  refine Eq.trans ?_ (Host.V_v15 m c)
  funext y
  show V m c main_v15 (((cfg0.win 3).blk t).view.emb y) = V m c main_v15 y
  have e := idx_facts t
  refine congrArg _ (funext fun a => Fin.ext ?_)
  match a with
    | ⟨0, _⟩ => show win0_3.index t (0 : Fin 2) * 256 + 1 * (y 0).val = (y 0).val; omega
    | ⟨1, _⟩ => show win0_3.index t (1 : Fin 2) * 256 + 1 * (y 1).val = (y 1).val; omega

/-- Window 4's block at any point is its whole array, whose contents the host operations fixed. -/
theorem iblk_4 (c : Dev nD) (t : Fin cfg0.N) : (iblk m c 4 t : S256.Idx → EReal) = (m ((c : Thread nD τ).loc main_arg4)) := by
  refine Eq.trans ?_ (V_main_arg4 m c)
  funext y
  show V m c main_arg4 (((cfg0.win 4).blk t).view.emb y) = V m c main_arg4 y
  have e := idx_facts t
  refine congrArg _ (funext fun a => Fin.ext ?_)
  match a with
    | ⟨0, _⟩ => show win0_4.index t (0 : Fin 1) * 256 + 1 * (y 0).val = (y 0).val; omega

/-- Window 5's block at any point is its whole array, whose contents the host operations fixed. -/
theorem iblk_5 (c : Dev nD) (t : Fin cfg0.N) : (iblk m c 5 t : S256x256.Idx → EReal) = (m ((c : Thread nD τ).loc main_arg5)) := by
  refine Eq.trans ?_ (Host.V_v16 m c)
  funext y
  show V m c main_v16 (((cfg0.win 5).blk t).view.emb y) = V m c main_v16 y
  have e := idx_facts t
  refine congrArg _ (funext fun a => Fin.ext ?_)
  match a with
    | ⟨0, _⟩ => show win0_5.index t (0 : Fin 2) * 256 + 1 * (y 0).val = (y 0).val; omega
    | ⟨1, _⟩ => show win0_5.index t (1 : Fin 2) * 256 + 1 * (y 1).val = (y 1).val; omega

/-- Window 6's block at any point is its whole array, whose contents the host operations fixed. -/
theorem iblk_6 (c : Dev nD) (t : Fin cfg0.N) : (iblk m c 6 t : S256.Idx → EReal) = (m ((c : Thread nD τ).loc main_arg6)) := by
  refine Eq.trans ?_ (V_main_arg6 m c)
  funext y
  show V m c main_arg6 (((cfg0.win 6).blk t).view.emb y) = V m c main_arg6 y
  have e := idx_facts t
  refine congrArg _ (funext fun a => Fin.ext ?_)
  match a with
    | ⟨0, _⟩ => show win0_6.index t (0 : Fin 1) * 256 + 1 * (y 0).val = (y 0).val; omega

/-- Window 7's block at any point is its whole array, whose contents the host operations fixed. -/
theorem iblk_7 (c : Dev nD) (t : Fin cfg0.N) : (iblk m c 7 t : S256x256.Idx → EReal) = (m ((c : Thread nD τ).loc main_arg7)) := by
  refine Eq.trans ?_ (Host.V_v17 m c)
  funext y
  show V m c main_v17 (((cfg0.win 7).blk t).view.emb y) = V m c main_v17 y
  have e := idx_facts t
  refine congrArg _ (funext fun a => Fin.ext ?_)
  match a with
    | ⟨0, _⟩ => show win0_7.index t (0 : Fin 2) * 256 + 1 * (y 0).val = (y 0).val; omega
    | ⟨1, _⟩ => show win0_7.index t (1 : Fin 2) * 256 + 1 * (y 1).val = (y 1).val; omega

/-- Window 8's block at any point is its whole array, whose contents the host operations fixed. -/
theorem iblk_8 (c : Dev nD) (t : Fin cfg0.N) : (iblk m c 8 t : S256.Idx → EReal) = (m ((c : Thread nD τ).loc main_arg8)) := by
  refine Eq.trans ?_ (V_main_arg8 m c)
  funext y
  show V m c main_arg8 (((cfg0.win 8).blk t).view.emb y) = V m c main_arg8 y
  have e := idx_facts t
  refine congrArg _ (funext fun a => Fin.ext ?_)
  match a with
    | ⟨0, _⟩ => show win0_8.index t (0 : Fin 1) * 256 + 1 * (y 0).val = (y 0).val; omega

/-- Window 9's block at any point is its whole array, whose contents the host operations fixed. -/
theorem iblk_9 (c : Dev nD) (t : Fin cfg0.N) : (iblk m c 9 t : S93x256.Idx → EReal) = padRows 0 93 (rows 0 63 (by decide) (m ((c : Thread nD τ).loc main_arg9))) := by
  refine Eq.trans ?_ (Host.V_v4 m c)
  funext y
  show V m c main_v4 (((cfg0.win 9).blk t).view.emb y) = V m c main_v4 y
  have e := idx_facts t
  refine congrArg _ (funext fun a => Fin.ext ?_)
  match a with
    | ⟨0, _⟩ => show win0_9.index t (0 : Fin 2) * 93 + 1 * (y 0).val = (y 0).val; omega
    | ⟨1, _⟩ => show win0_9.index t (1 : Fin 2) * 256 + 1 * (y 1).val = (y 1).val; omega

/-- Window 10's block at any point is its whole array, whose contents the host operations fixed. -/
theorem iblk_10 (c : Dev nD) (t : Fin cfg0.N) : (iblk m c 10 t : S256x256.Idx → EReal) = rows 63 256 (by decide) (m ((c : Thread nD τ).loc main_arg9)) := by
  refine Eq.trans ?_ (Host.V_v6 m c)
  funext y
  show V m c main_v6 (((cfg0.win 10).blk t).view.emb y) = V m c main_v6 y
  have e := idx_facts t
  refine congrArg _ (funext fun a => Fin.ext ?_)
  match a with
    | ⟨0, _⟩ => show win0_10.index t (0 : Fin 2) * 256 + 1 * (y 0).val = (y 0).val; omega
    | ⟨1, _⟩ => show win0_10.index t (1 : Fin 2) * 256 + 1 * (y 1).val = (y 1).val; omega

/-- Window 11's block at any point is its whole array, whose contents the host operations fixed. -/
theorem iblk_11 (c : Dev nD) (t : Fin cfg0.N) : (iblk m c 11 t : S256.Idx → EReal) = (m ((c : Thread nD τ).loc main_arg10)) := by
  refine Eq.trans ?_ (V_main_arg10 m c)
  funext y
  show V m c main_arg10 (((cfg0.win 11).blk t).view.emb y) = V m c main_arg10 y
  have e := idx_facts t
  refine congrArg _ (funext fun a => Fin.ext ?_)
  match a with
    | ⟨0, _⟩ => show win0_11.index t (0 : Fin 1) * 256 + 1 * (y 0).val = (y 0).val; omega

/-- Window 12's block at any point is its whole array, whose contents the host operations fixed. -/
theorem iblk_12 (c : Dev nD) (t : Fin cfg0.N) : (iblk m c 12 t : S256x256.Idx → EReal) = (m ((c : Thread nD τ).loc main_arg11)) := by
  refine Eq.trans ?_ (Host.V_v18 m c)
  funext y
  show V m c main_v18 (((cfg0.win 12).blk t).view.emb y) = V m c main_v18 y
  have e := idx_facts t
  refine congrArg _ (funext fun a => Fin.ext ?_)
  match a with
    | ⟨0, _⟩ => show win0_12.index t (0 : Fin 2) * 256 + 1 * (y 0).val = (y 0).val; omega
    | ⟨1, _⟩ => show win0_12.index t (1 : Fin 2) * 256 + 1 * (y 1).val = (y 1).val; omega

/-- Window 13's block at any point is its whole array, whose contents the host operations fixed. -/
theorem iblk_13 (c : Dev nD) (t : Fin cfg0.N) : (iblk m c 13 t : S256.Idx → EReal) = (m ((c : Thread nD τ).loc main_arg12)) := by
  refine Eq.trans ?_ (V_main_arg12 m c)
  funext y
  show V m c main_arg12 (((cfg0.win 13).blk t).view.emb y) = V m c main_arg12 y
  have e := idx_facts t
  refine congrArg _ (funext fun a => Fin.ext ?_)
  match a with
    | ⟨0, _⟩ => show win0_13.index t (0 : Fin 1) * 256 + 1 * (y 0).val = (y 0).val; omega

/-- Window 14's block at any point is its whole array, whose contents the host operations fixed. -/
theorem iblk_14 (c : Dev nD) (t : Fin cfg0.N) : (iblk m c 14 t : S256x256.Idx → EReal) = (m ((c : Thread nD τ).loc main_arg13)) := by
  refine Eq.trans ?_ (Host.V_v19 m c)
  funext y
  show V m c main_v19 (((cfg0.win 14).blk t).view.emb y) = V m c main_v19 y
  have e := idx_facts t
  refine congrArg _ (funext fun a => Fin.ext ?_)
  match a with
    | ⟨0, _⟩ => show win0_14.index t (0 : Fin 2) * 256 + 1 * (y 0).val = (y 0).val; omega
    | ⟨1, _⟩ => show win0_14.index t (1 : Fin 2) * 256 + 1 * (y 1).val = (y 1).val; omega

/-- Window 15's block at any point is its whole array, whose contents the host operations fixed. -/
theorem iblk_15 (c : Dev nD) (t : Fin cfg0.N) : (iblk m c 15 t : S256.Idx → EReal) = (m ((c : Thread nD τ).loc main_arg14)) := by
  refine Eq.trans ?_ (V_main_arg14 m c)
  funext y
  show V m c main_arg14 (((cfg0.win 15).blk t).view.emb y) = V m c main_arg14 y
  have e := idx_facts t
  refine congrArg _ (funext fun a => Fin.ext ?_)
  match a with
    | ⟨0, _⟩ => show win0_15.index t (0 : Fin 1) * 256 + 1 * (y 0).val = (y 0).val; omega

/-- Window 16's block at any point is its whole array, whose contents the host operations fixed. -/
theorem iblk_16 (c : Dev nD) (t : Fin cfg0.N) : (iblk m c 16 t : S256x256.Idx → EReal) = (m ((c : Thread nD τ).loc main_arg15)) := by
  refine Eq.trans ?_ (Host.V_v20 m c)
  funext y
  show V m c main_v20 (((cfg0.win 16).blk t).view.emb y) = V m c main_v20 y
  have e := idx_facts t
  refine congrArg _ (funext fun a => Fin.ext ?_)
  match a with
    | ⟨0, _⟩ => show win0_16.index t (0 : Fin 2) * 256 + 1 * (y 0).val = (y 0).val; omega
    | ⟨1, _⟩ => show win0_16.index t (1 : Fin 2) * 256 + 1 * (y 1).val = (y 1).val; omega

/-- Window 17's block at any point is its whole array, whose contents the host operations fixed. -/
theorem iblk_17 (c : Dev nD) (t : Fin cfg0.N) : (iblk m c 17 t : S256.Idx → EReal) = (m ((c : Thread nD τ).loc main_arg16)) := by
  refine Eq.trans ?_ (V_main_arg16 m c)
  funext y
  show V m c main_arg16 (((cfg0.win 17).blk t).view.emb y) = V m c main_arg16 y
  have e := idx_facts t
  refine congrArg _ (funext fun a => Fin.ext ?_)
  match a with
    | ⟨0, _⟩ => show win0_17.index t (0 : Fin 1) * 256 + 1 * (y 0).val = (y 0).val; omega

/-- Window 18's block at any point is its whole array, whose contents the host operations fixed. -/
theorem iblk_18 (c : Dev nD) (t : Fin cfg0.N) : (iblk m c 18 t : S256x257.Idx → EReal) = joinCols 257 rfl (m ((c : Thread nD τ).loc main_arg17)) (m ((c : Thread nD τ).loc main_arg21)) := by
  refine Eq.trans ?_ (Host.V_v13 m c)
  funext y
  show V m c main_v13 (((cfg0.win 18).blk t).view.emb y) = V m c main_v13 y
  have e := idx_facts t
  refine congrArg _ (funext fun a => Fin.ext ?_)
  match a with
    | ⟨0, _⟩ => show win0_18.index t (0 : Fin 2) * 256 + 1 * (y 0).val = (y 0).val; omega
    | ⟨1, _⟩ => show win0_18.index t (1 : Fin 2) * 257 + 1 * (y 1).val = (y 1).val; omega

/-- Window 19's block at any point is its whole array, whose contents the host operations fixed. -/
theorem iblk_19 (c : Dev nD) (t : Fin cfg0.N) : (iblk m c 19 t : S257.Idx → EReal) = joinRow 257 rfl (m ((c : Thread nD τ).loc main_arg18)) (m ((c : Thread nD τ).loc main_arg22)) := by
  refine Eq.trans ?_ (Host.V_v14 m c)
  funext y
  show V m c main_v14 (((cfg0.win 19).blk t).view.emb y) = V m c main_v14 y
  have e := idx_facts t
  refine congrArg _ (funext fun a => Fin.ext ?_)
  match a with
    | ⟨0, _⟩ => show win0_19.index t (0 : Fin 1) * 257 + 1 * (y 0).val = (y 0).val; omega

/-- Window 20's block at any point is its whole array, whose contents the host operations fixed. -/
theorem iblk_20 (c : Dev nD) (t : Fin cfg0.N) : (iblk m c 20 t : S256x128.Idx → EReal) = rows 0 256 (by decide) (m ((c : Thread nD τ).loc main_arg19)) := by
  refine Eq.trans ?_ (Host.V_v8 m c)
  funext y
  show V m c main_v8 (((cfg0.win 20).blk t).view.emb y) = V m c main_v8 y
  have e := idx_facts t
  refine congrArg _ (funext fun a => Fin.ext ?_)
  match a with
    | ⟨0, _⟩ => show win0_20.index t (0 : Fin 2) * 256 + 1 * (y 0).val = (y 0).val; omega
    | ⟨1, _⟩ => show win0_20.index t (1 : Fin 2) * 128 + 1 * (y 1).val = (y 1).val; omega

/-- Window 21's block at any point is its whole array, whose contents the host operations fixed. -/
theorem iblk_21 (c : Dev nD) (t : Fin cfg0.N) : (iblk m c 21 t : S93x128.Idx → EReal) = padRows 63 93 (rows 256 30 (by decide) (m ((c : Thread nD τ).loc main_arg19))) := by
  refine Eq.trans ?_ (Host.V_v11 m c)
  funext y
  show V m c main_v11 (((cfg0.win 21).blk t).view.emb y) = V m c main_v11 y
  have e := idx_facts t
  refine congrArg _ (funext fun a => Fin.ext ?_)
  match a with
    | ⟨0, _⟩ => show win0_21.index t (0 : Fin 2) * 93 + 1 * (y 0).val = (y 0).val; omega
    | ⟨1, _⟩ => show win0_21.index t (1 : Fin 2) * 128 + 1 * (y 1).val = (y 1).val; omega

/-- Window 22's block at any point is its whole array, whose contents the host operations fixed. -/
theorem iblk_22 (c : Dev nD) (t : Fin cfg0.N) : (iblk m c 22 t : S128.Idx → EReal) = (m ((c : Thread nD τ).loc main_arg20)) := by
  refine Eq.trans ?_ (V_main_arg20 m c)
  funext y
  show V m c main_arg20 (((cfg0.win 22).blk t).view.emb y) = V m c main_arg20 y
  have e := idx_facts t
  refine congrArg _ (funext fun a => Fin.ext ?_)
  match a with
    | ⟨0, _⟩ => show win0_22.index t (0 : Fin 1) * 128 + 1 * (y 0).val = (y 0).val; omega

/-- Window 23's block at any point is its whole array, whose contents the host operations fixed. -/
theorem iblk_23 (c : Dev nD) (t : Fin cfg0.N) : (iblk m c 23 t : S128x3.Idx → EReal) = (m ((c : Thread nD τ).loc main_arg23)) := by
  refine Eq.trans ?_ (Host.V_v21 m c)
  funext y
  show V m c main_v21 (((cfg0.win 23).blk t).view.emb y) = V m c main_v21 y
  have e := idx_facts t
  refine congrArg _ (funext fun a => Fin.ext ?_)
  match a with
    | ⟨0, _⟩ => show win0_23.index t (0 : Fin 2) * 128 + 1 * (y 0).val = (y 0).val; omega
    | ⟨1, _⟩ => show win0_23.index t (1 : Fin 2) * 3 + 1 * (y 1).val = (y 1).val; omega

/-- Window 24's block at any point is its whole array, whose contents the host operations fixed. -/
theorem iblk_24 (c : Dev nD) (t : Fin cfg0.N) : (iblk m c 24 t : S3.Idx → EReal) = (m ((c : Thread nD τ).loc main_arg24)) := by
  refine Eq.trans ?_ (V_main_arg24 m c)
  funext y
  show V m c main_arg24 (((cfg0.win 24).blk t).view.emb y) = V m c main_arg24 y
  have e := idx_facts t
  refine congrArg _ (funext fun a => Fin.ext ?_)
  match a with
    | ⟨0, _⟩ => show win0_24.index t (0 : Fin 1) * 3 + 1 * (y 0).val = (y 0).val; omega

/-- WHAT POINT `t` WRITES BACK is block `t` of the network of the argument arrays. -/
theorem flushed_eq (c : Dev nD) (t : Fin cfg0.N) :
    (dats m 0 c).flushed 25 t = ((cfg0.win 25).blk t).view.read (Elt Ideal) (G (n := 262144) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))) := by
  show (cfg0.win 25).cut (grid0.coords t) ((dats m 0 c).after 25 t) = _
  rw [after0_25]
  funext j
  obtain ⟨p, q, rfl⟩ : ∃ (p : Fin 2048) (q : Fin 4), j = ix2 p q := ⟨j 0, j 1, eq_ix2 j⟩
  obtain ⟨e0, e1, e2, -⟩ := idx_facts t
  have hq : ((cfg0.win 25).blk t).view.emb (ix2 p q) (1 : Fin 2) = q := Fin.ext (by
    show win0_25.index t (1 : Fin 2) * 4 + 1 * q.val = q.val
    omega)
  have hi : ((cfg0.win 25).blk t).view.emb (ix2 p q)
      = ix2 (((cfg0.win 25).blk t).view.emb (ix2 p q) (0 : Fin 2)) q := by
    funext a
    match a with
    | ⟨0, _⟩ => rfl
    | ⟨1, _⟩ => exact hq
  show out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (ix2 p q)
    = G (n := 262144) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (((cfg0.win 25).blk t).view.emb (ix2 p q))
  rw [hi]
  refine point_eq _ _ _ _ _ _ _ _ _ _ _ _ _ _ _ _ _ _ _ _ _ _ _ _ _ _ _ _ _ _ _ _ _ _ _ _ _ _ _ _ _ _ _ _ _ _ _ _ _ _
    (iblk_1 m c t) (iblk_2 m c t) (iblk_3 m c t) (iblk_4 m c t) (iblk_5 m c t) (iblk_6 m c t) (iblk_7 m c t) (iblk_8 m c t)
    (iblk_9 m c t) (iblk_10 m c t) (iblk_11 m c t) (iblk_12 m c t) (iblk_13 m c t) (iblk_14 m c t) (iblk_15 m c t) (iblk_16 m c t)
    (iblk_17 m c t) (iblk_18 m c t) (iblk_19 m c t) (iblk_20 m c t) (iblk_21 m c t) (iblk_22 m c t) (iblk_23 m c t) (iblk_24 m c t)
    p _ (fun k => ?_) q
  show V m c main_arg0 (((cfg0.win 0).blk t).view.emb (ix2 p k)) = _
  rw [V_main_arg0]
  refine congrArg _ (funext fun a => Fin.ext ?_)
  match a with
  | ⟨0, _⟩ =>
    show win0_0.index t (0 : Fin 2) * 2048 + 1 * p.val = win0_25.index t (0 : Fin 2) * 2048 + 1 * p.val
    omega
  | ⟨1, _⟩ =>
    show win0_0.index t (1 : Fin 2) * 93 + 1 * k.val = k.val
    omega

/-- An index of the result array is in point `t`'s block iff each coordinate is in the block's range. -/
theorem mem_blk (t : Fin cfg0.N) (i : S262144x4.Idx) :
    i ∈ ((cfg0.win 25).blk t).view.set ↔ ∀ a : Fin 2, win0_25.index t a * S2048x4.size a ≤ (i a).val ∧ (i a).val < win0_25.index t a * S2048x4.size a + S2048x4.size a := by
  show i ∈ ((View.whole main_v22).slice (win0_25.rect t)).set ↔ _
  rw [View.set_slice_whole, Rect.mem_set_unit]
  exact Iff.rfl

/-- The blocks cover the array: row `r` is in the block of the point whose row block is `r / 2048`. -/
theorem cover (i : S262144x4.Idx) : ∃ t : Fin cfg0.N, (cfg0.win 25).flush t = true ∧ i ∈ ((cfg0.win 25).blk t).view.set := by
  have hi0 : (i 0).val < 262144 := (i 0).isLt
  have hi1 : (i 1).val < 4 := (i 1).isLt
  obtain ⟨t, ht⟩ := idx_onto ⟨(i 0).val / 2048, by omega⟩
  have q0 : win0_25.index t (0 : Fin 2) = (i 0).val / 2048 := congrFun ht 0
  have q1 : win0_25.index t (1 : Fin 2) = 0 := congrFun ht 1
  refine ⟨t, flush0_25 t, ?_⟩
  rw [mem_blk]
  intro a
  match a with
  | ⟨0, _⟩ => show win0_25.index t (0 : Fin 2) * 2048 ≤ (i 0).val ∧ (i 0).val < win0_25.index t (0 : Fin 2) * 2048 + 2048; omega
  | ⟨1, _⟩ => show win0_25.index t (1 : Fin 2) * 4 ≤ (i 1).val ∧ (i 1).val < win0_25.index t (1 : Fin 2) * 4 + 4; omega

/-- THE RESULT ARRAY after the run is the network of the argument arrays. -/
theorem final (c : Dev nD) : (dats m 0 c).arrAt 25 cfg0.N = G (n := 262144) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (dats m 0 c).arrAt_eq_of_cover 25 _ (fun t _ => flushed_eq m c t) cover

/-- The kernel's run, read: the result array is the network of the argument arrays, the arguments unchanged. -/
theorem run : θ_run defs (onTc (τ := τ) (main (F := Ideal))) ⟨m, fun _ => 0, ρ⟩ fun r => ∀ c : Dev nD,
      r.2.mem ((c : Thread nD τ).loc main_v22) = G (n := 262144) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨(h c).1.trans (final m c), (h c).2⟩) (Value.run_blocks m ρ)

end Cert.Nerf.KernelValue

end
-- ==== Proof.RefValue.lean ====
/-
  The reference program's result is the network `G` of the specification.

  The reference is a list of array operations, each applied to earlier results. Grouped by layer they are:
    • a dense layer: a matrix product, the bias vector broadcast to a row and then over the rows, their sum, and for a
      rectified layer the maximum with a broadcast zero — the functions `affine` and `affineRelu` at the bias as a one-row array;
    • a slice of the input's columns (`cols`), and a join of two arrays along the columns (`joinCols`);
    • the logistic function spelt `1 / (1 + exp (−z))` with broadcast ones (`sigm`).
  One lemma per group says so, with the group's operand left as it is; chaining them rewrites the last operation's value into `G`.
-/
import proofs.«155531_j78477642432658_2_alg».proof.Proof.Gen.ReferenceIdeal.Read
import proofs.«155531_j78477642432658_2_alg».proof.Proof.NerfSpec
import proofs.«155531_j78477642432658_2_alg».proof.Proof.KernelLayers
import Idealize.ShloMosaic.Lib.IdealHost

noncomputable section

open scoped BigOperators

namespace Cert.Nerf.Ref

open Idealize.ShloMosaic Idealize.ShloMosaic.ValueIdx Cert.Lib.DenseLayer Cert.Nerf
open Cert.ReferenceIdeal Cert.ReferenceIdeal.Gen Cert.ReferenceIdeal.Read

/-! ## The dense layers and the logistic function, for any sizes -/

section Generic

variable {n K N : Nat}

/-- A rectified dense layer as the host spells it is `affineRelu` at the bias as a one-row array. -/
theorem host_layerRelu (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hb0 : (⟨0, ![]⟩ : Shape).BroadcastsInDim ⟨2, ![n, N]⟩ ![])
    (hsc : (⟨1, ![N]⟩ : Shape).ShapeCasts ⟨2, ![1, N]⟩)
    (X : Mat n K) (W : Mat K N) (b : Row N) :
    maximumf (addf (Host.dotGeneral D none X W) (broadcastInDim ⟨2, ![n, N]⟩ ![0, 1] hb2 (broadcastInDim ⟨2, ![1, N]⟩ ![1] hb1 b)))
        (broadcastInDim ⟨2, ![n, N]⟩ ![] hb0 (constant (F := Ideal) ⟨0, ![]⟩ .f32 0x00000000#32))
      = affineRelu X W (row b) := by
  rw [host_affineRelu_eq D hD hb1 hb2 hb0 hsc, shapeCast_row]

/-- A dense layer without the rectifier is `affine`. -/
theorem host_layer (D : DotDims ⟨2, ![n, K]⟩ ⟨2, ![K, N]⟩ ⟨2, ![n, N]⟩) (hD : D = DotDims.plain n K N)
    (hb1 : (⟨1, ![N]⟩ : Shape).BroadcastsInDim ⟨2, ![1, N]⟩ ![1])
    (hb2 : (⟨2, ![1, N]⟩ : Shape).BroadcastsInDim ⟨2, ![n, N]⟩ ![0, 1])
    (hsc : (⟨1, ![N]⟩ : Shape).ShapeCasts ⟨2, ![1, N]⟩)
    (X : Mat n K) (W : Mat K N) (b : Row N) :
    addf (Host.dotGeneral D none X W) (broadcastInDim ⟨2, ![n, N]⟩ ![0, 1] hb2 (broadcastInDim ⟨2, ![1, N]⟩ ![1] hb1 b))
      = affine X W (row b) := by
  rw [host_affine_eq D hD hb1 hb2 hsc, shapeCast_row]

/-- `1 / (1 + exp (−z))` with the ones broadcast from the float word of one is the logistic function at every entry. -/
theorem host_sigm {a : Nat} (hb0 : (⟨0, ![]⟩ : Shape).BroadcastsInDim ⟨2, ![n, a]⟩ ![]) (Z : Mat n a) :
    Host.divf (broadcastInDim ⟨2, ![n, a]⟩ ![] hb0 (constant (F := Ideal) ⟨0, ![]⟩ .f32 0x3F800000#32))
        (addf (broadcastInDim ⟨2, ![n, a]⟩ ![] hb0 (constant (F := Ideal) ⟨0, ![]⟩ .f32 0x3F800000#32)) (Host.exp (Host.negf Z)))
      = sigm Z := by
  funext i
  rw [hostDivf_apply, addf_apply, broadcastInDim_scalar_apply]
  show Ideal.div (Ideal.ofBits .f32 0x3F800000#32) (Ideal.ofBits .f32 0x3F800000#32 + Ideal.exp (-(Z i))) = Ideal.logistic (Z i)
  rw [Ideal.ofBits_one_f32]
  rfl

end Generic

/-! ## The reference's operations, group by group -/

variable (x0 : (⟨S262144x93, .f32⟩ : BufTy).Contents (Elt Ideal)) (x1 : (⟨S63x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal))
  (x9 : (⟨S319x256, .f32⟩ : BufTy).Contents (Elt Ideal)) (x10 : (⟨S256, .f32⟩ : BufTy).Contents (Elt Ideal)) (x11 : (⟨S256x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal))
  (x17 : (⟨S256x256, .f32⟩ : BufTy).Contents (Elt Ideal)) (x18 : (⟨S256, .f32⟩ : BufTy).Contents (Elt Ideal)) (x19 : (⟨S286x128, .f32⟩ : BufTy).Contents (Elt Ideal)) (x20 : (⟨S128, .f32⟩ : BufTy).Contents (Elt Ideal)) (x21 : (⟨S256x1, .f32⟩ : BufTy).Contents (Elt Ideal)) (x22 : (⟨S1, .f32⟩ : BufTy).Contents (Elt Ideal)) (x23 : (⟨S128x3, .f32⟩ : BufTy).Contents (Elt Ideal)) (x24 : (⟨S3, .f32⟩ : BufTy).Contents (Elt Ideal))

/-- The first slice is the 63 position columns. -/
theorem v0_eq : val_main_v0 (F := Ideal) x0 = cols (n := 262144) (m := 93) 0 63 (by decide) x0 := by
  unfold val_main_v0
  exact Body.slice_cols 0 63 (by decide) x0 _

/-- The second slice is the 30 direction columns. -/
theorem v1_eq : val_main_v1 (F := Ideal) x0 = cols (n := 262144) (m := 93) 63 30 (by decide) x0 := by
  unfold val_main_v1
  exact Body.slice_cols 63 30 (by decide) x0 _

theorem v6_eq :
    val_main_v6 (F := Ideal) x0 x1 x2 = affineRelu (val_main_v0 (F := Ideal) x0) x1 (row x2) := by
  unfold val_main_v6 val_main_v5 val_main_v4 val_main_v3 val_main_v2 val_main_call0_v0 val_main_call0_cst
  exact host_layerRelu _ rfl _ _ _ (by decide) _ _ _

theorem v11_eq :
    val_main_v11 (F := Ideal) x0 x1 x2 x3 x4 = affineRelu (val_main_v6 (F := Ideal) x0 x1 x2) x3 (row x4) := by
  unfold val_main_v11 val_main_v10 val_main_v9 val_main_v8 val_main_v7 val_main_call1_v0 val_main_call1_cst
  exact host_layerRelu _ rfl _ _ _ (by decide) _ _ _

theorem v16_eq :
    val_main_v16 (F := Ideal) x0 x1 x2 x3 x4 x5 x6 = affineRelu (val_main_v11 (F := Ideal) x0 x1 x2 x3 x4) x5 (row x6) := by
  unfold val_main_v16 val_main_v15 val_main_v14 val_main_v13 val_main_v12 val_main_call2_v0 val_main_call2_cst
  exact host_layerRelu _ rfl _ _ _ (by decide) _ _ _

theorem v21_eq :
    val_main_v21 (F := Ideal) x0 x1 x2 x3 x4 x5 x6 x7 x8 = affineRelu (val_main_v16 (F := Ideal) x0 x1 x2 x3 x4 x5 x6) x7 (row x8) := by
  unfold val_main_v21 val_main_v20 val_main_v19 val_main_v18 val_main_v17 val_main_call3_v0 val_main_call3_cst
  exact host_layerRelu _ rfl _ _ _ (by decide) _ _ _

/-- The position columns joined with the fourth layer's result. -/
theorem v22_eq :
    val_main_v22 (F := Ideal) x0 x1 x2 x3 x4 x5 x6 x7 x8
      = joinCols 319 rfl (val_main_v0 (F := Ideal) x0) (val_main_v21 (F := Ideal) x0 x1 x2 x3 x4 x5 x6 x7 x8) := by
  unfold val_main_v22
  exact Body.concat_cols 319 rfl _ _ _

theorem v27_eq :
    val_main_v27 (F := Ideal) x0 x1 x2 x3 x4 x5 x6 x7 x8 x9 x10 = affineRelu (val_main_v22 (F := Ideal) x0 x1 x2 x3 x4 x5 x6 x7 x8) x9 (row x10) := by
  unfold val_main_v27 val_main_v26 val_main_v25 val_main_v24 val_main_v23 val_main_call4_v0 val_main_call4_cst
  exact host_layerRelu _ rfl _ _ _ (by decide) _ _ _

theorem v32_eq :
    val_main_v32 (F := Ideal) x0 x1 x2 x3 x4 x5 x6 x7 x8 x9 x10 x11 x12 = affineRelu (val_main_v27 (F := Ideal) x0 x1 x2 x3 x4 x5 x6 x7 x8 x9 x10) x11 (row x12) := by
  unfold val_main_v32 val_main_v31 val_main_v30 val_main_v29 val_main_v28 val_main_call5_v0 val_main_call5_cst
  exact host_layerRelu _ rfl _ _ _ (by decide) _ _ _

theorem v37_eq :
    val_main_v37 (F := Ideal) x0 x1 x2 x3 x4 x5 x6 x7 x8 x9 x10 x11 x12 x13 x14 = affineRelu (val_main_v32 (F := Ideal) x0 x1 x2 x3 x4 x5 x6 x7 x8 x9 x10 x11 x12) x13 (row x14) := by
  unfold val_main_v37 val_main_v36 val_main_v35 val_main_v34 val_main_v33 val_main_call6_v0 val_main_call6_cst
  exact host_layerRelu _ rfl _ _ _ (by decide) _ _ _

theorem v42_eq :
    val_main_v42 (F := Ideal) x0 x1 x2 x3 x4 x5 x6 x7 x8 x9 x10 x11 x12 x13 x14 x15 x16 = affineRelu (val_main_v37 (F := Ideal) x0 x1 x2 x3 x4 x5 x6 x7 x8 x9 x10 x11 x12 x13 x14) x15 (row x16) := by
  unfold val_main_v42 val_main_v41 val_main_v40 val_main_v39 val_main_v38 val_main_call7_v0 val_main_call7_cst
  exact host_layerRelu _ rfl _ _ _ (by decide) _ _ _

/-- The density head. -/
theorem v46_eq :
    val_main_v46 (F := Ideal) x0 x1 x2 x3 x4 x5 x6 x7 x8 x9 x10 x11 x12 x13 x14 x15 x16 x21 x22 = affine (val_main_v42 (F := Ideal) x0 x1 x2 x3 x4 x5 x6 x7 x8 x9 x10 x11 x12 x13 x14 x15 x16) x21 (row x22) := by
  unfold val_main_v46 val_main_v45 val_main_v44 val_main_v43
  exact host_layer _ rfl _ _ (by decide) _ _ _

/-- The feature head. -/
theorem v50_eq :
    val_main_v50 (F := Ideal) x0 x1 x2 x3 x4 x5 x6 x7 x8 x9 x10 x11 x12 x13 x14 x15 x16 x17 x18 = affine (val_main_v42 (F := Ideal) x0 x1 x2 x3 x4 x5 x6 x7 x8 x9 x10 x11 x12 x13 x14 x15 x16) x17 (row x18) := by
  unfold val_main_v50 val_main_v49 val_main_v48 val_main_v47
  exact host_layer _ rfl _ _ (by decide) _ _ _

/-- The features joined with the direction columns. -/
theorem v51_eq :
    val_main_v51 (F := Ideal) x0 x1 x2 x3 x4 x5 x6 x7 x8 x9 x10 x11 x12 x13 x14 x15 x16 x17 x18
      = joinCols 286 rfl (val_main_v50 (F := Ideal) x0 x1 x2 x3 x4 x5 x6 x7 x8 x9 x10 x11 x12 x13 x14 x15 x16 x17 x18) (val_main_v1 (F := Ideal) x0) := by
  unfold val_main_v51
  exact Body.concat_cols 286 rfl _ _ _

theorem v56_eq :
    val_main_v56 (F := Ideal) x0 x1 x2 x3 x4 x5 x6 x7 x8 x9 x10 x11 x12 x13 x14 x15 x16 x17 x18 x19 x20 = affineRelu (val_main_v51 (F := Ideal) x0 x1 x2 x3 x4 x5 x6 x7 x8 x9 x10 x11 x12 x13 x14 x15 x16 x17 x18) x19 (row x20) := by
  unfold val_main_v56 val_main_v55 val_main_v54 val_main_v53 val_main_v52 val_main_call8_v0 val_main_call8_cst
  exact host_layerRelu _ rfl _ _ _ (by decide) _ _ _

/-- The colour before the logistic function. -/
theorem v60_eq :
    val_main_v60 (F := Ideal) x0 x1 x2 x3 x4 x5 x6 x7 x8 x9 x10 x11 x12 x13 x14 x15 x16 x17 x18 x19 x20 x23 x24 = affine (val_main_v56 (F := Ideal) x0 x1 x2 x3 x4 x5 x6 x7 x8 x9 x10 x11 x12 x13 x14 x15 x16 x17 x18 x19 x20) x23 (row x24) := by
  unfold val_main_v60 val_main_v59 val_main_v58 val_main_v57
  exact host_layer _ rfl _ _ (by decide) _ _ _

/-- The colour. -/
theorem v66_eq :
    val_main_v66 (F := Ideal) x0 x1 x2 x3 x4 x5 x6 x7 x8 x9 x10 x11 x12 x13 x14 x15 x16 x17 x18 x19 x20 x23 x24 = sigm (val_main_v60 (F := Ideal) x0 x1 x2 x3 x4 x5 x6 x7 x8 x9 x10 x11 x12 x13 x14 x15 x16 x17 x18 x19 x20 x23 x24) := by
  unfold val_main_v66 val_main_v65 val_main_cst_0 val_main_v64 val_main_v63 val_main_cst val_main_v62 val_main_v61
  exact host_sigm _ _

/-- The result: colour joined with density. -/
theorem v67_eq :
    val_main_v67 (F := Ideal) x0 x1 x2 x3 x4 x5 x6 x7 x8 x9 x10 x11 x12 x13 x14 x15 x16 x17 x18 x19 x20 x21 x22 x23 x24
      = joinCols 4 rfl (val_main_v66 (F := Ideal) x0 x1 x2 x3 x4 x5 x6 x7 x8 x9 x10 x11 x12 x13 x14 x15 x16 x17 x18 x19 x20 x23 x24) (val_main_v46 (F := Ideal) x0 x1 x2 x3 x4 x5 x6 x7 x8 x9 x10 x11 x12 x13 x14 x15 x16 x21 x22) := by
  unfold val_main_v67
  exact Body.concat_cols 4 rfl _ _ _

/-! ## The chain -/

/-- The fourth layer's result is `trunkA`. -/
theorem h4_eq : val_main_v21 (F := Ideal) x0 x1 x2 x3 x4 x5 x6 x7 x8 = trunkA (n := 262144) x0 x1 x2 x3 x4 x5 x6 x7 x8 := by
  rw [v21_eq, v16_eq, v11_eq, v6_eq, v0_eq]
  rfl

/-- The eighth layer's result is `trunkB` of it. -/
theorem h8_eq :
    val_main_v42 (F := Ideal) x0 x1 x2 x3 x4 x5 x6 x7 x8 x9 x10 x11 x12 x13 x14 x15 x16
      = trunkB (n := 262144) x0 (trunkA (n := 262144) x0 x1 x2 x3 x4 x5 x6 x7 x8) x9 x10 x11 x12 x13 x14 x15 x16 := by
  rw [v42_eq, v37_eq, v32_eq, v27_eq, v22_eq, h4_eq, v0_eq]
  rfl

/-- THE REFERENCE'S RESULT IS THE NETWORK. -/
theorem ref_eq : val_main_v67 (F := Ideal) x0 x1 x2 x3 x4 x5 x6 x7 x8 x9 x10 x11 x12 x13 x14 x15 x16 x17 x18 x19 x20 x21 x22 x23 x24 = G (n := 262144) x0 x1 x2 x3 x4 x5 x6 x7 x8 x9 x10 x11 x12 x13 x14 x15 x16 x17 x18 x19 x20 x21 x22 x23 x24 := by
  rw [v67_eq, v66_eq, v60_eq, v56_eq, v51_eq, v50_eq, v46_eq, h8_eq, v1_eq]
  rfl

end Cert.Nerf.Ref

end
-- ==== Proof.lean ====
/-
  The claim: a Pallas kernel evaluating a NeRF-style multilayer perceptron on 262144 input rows, 2048 rows per grid point,
  against its jnp reference, over the extended reals.

  Both programs compute, for every input row `x` (63 position features, then 30 direction features), eight rectified dense
  layers (the fifth reading the position features again beside the fourth's output), a density head and a feature head from
  the eighth, a rectified direction layer from the features beside the direction features, and a colour through the logistic
  function; the result row is colour beside density (Proof/NerfSpec.lean, `G`). The reference slices and joins the rows and
  multiplies once per layer (Proof/RefValue.lean: its generated run, read one operation at a time, is `G`). The kernel keeps
  the rows whole: its host program extends the first weight matrix by zero rows, splits the matrices of the two joined layers
  into row blocks (one of them zero-extended) and joins the two heads' matrices and biases (Proof/HostPrep.lean); its body is
  then the rearranged network `K` of a block of rows (Proof/KernelBlock.lean), which is `G` on that block because a product
  with a zero-extended matrix drops the zero terms, a product with a joined row is the sum of the products with the two row
  blocks, and a joined head cut apart is the two heads (Proof/NerfLaw.lean: sums in a commutative monoid with `x · 0 = 0`, no
  finiteness used); the 128 blocks tile the result (Proof/KernelValue.lean). The three frames are the generated ones; the
  ideal pass rewrote nothing, so the idealization claim is trivial.
-/
import proofs.«155531_j78477642432658_2_alg».proof.Defs
import proofs.«155531_j78477642432658_2_alg».proof.Proof.Gen.Kernel
import proofs.«155531_j78477642432658_2_alg».proof.Proof.Gen.Kernel.Skeleton
import proofs.«155531_j78477642432658_2_alg».proof.Proof.Gen.Kernel.Launch
import proofs.«155531_j78477642432658_2_alg».proof.Proof.Gen.Kernel.Points
import proofs.«155531_j78477642432658_2_alg».proof.Proof.Gen.Kernel.Frame
import proofs.«155531_j78477642432658_2_alg».proof.Proof.Gen.KernelIdeal
import proofs.«155531_j78477642432658_2_alg».proof.Proof.Gen.KernelIdeal.Skeleton
import proofs.«155531_j78477642432658_2_alg».proof.Proof.Gen.KernelIdeal.Launch
import proofs.«155531_j78477642432658_2_alg».proof.Proof.Gen.KernelIdeal.Points
import proofs.«155531_j78477642432658_2_alg».proof.Proof.Gen.KernelIdeal.Frame
import proofs.«155531_j78477642432658_2_alg».proof.Proof.Gen.ReferenceIdeal
import proofs.«155531_j78477642432658_2_alg».proof.Proof.Gen.Pre_finite_inputs
import proofs.«155531_j78477642432658_2_alg».proof.Proof.Gen.KernelIdeal.Value
import proofs.«155531_j78477642432658_2_alg».proof.Proof.Gen.ReferenceIdeal.Run
import proofs.«155531_j78477642432658_2_alg».proof.Proof.Gen.ReferenceIdeal.Read
import proofs.«155531_j78477642432658_2_alg».proof.Proof.KernelValue
import proofs.«155531_j78477642432658_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : @Cert.frame_Kernel Cert.Kernel.Gen.facts Cert.Pre_finite_inputs.Gen.facts :=
  fun m ρ _ => Cert.Kernel.Gen.frame m ρ

/-- The idealized kernel runs and leaves its arguments: the generated frame. -/
theorem frame_kernelIdeal : @Cert.frame_KernelIdeal Cert.KernelIdeal.Gen.facts Cert.Pre_finite_inputs.Gen.facts :=
  fun m ρ _ => Cert.KernelIdeal.Gen.frame m ρ

/-- The reference runs and leaves its arguments: its generated run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The network of equal arrays is the same array. -/
theorem G_congr {y0 z0 : Cert.Nerf.Mat 262144 93} {y1 z1 : Cert.Nerf.Mat 63 256} {y2 z2 : Cert.Nerf.Row 256} {y3 z3 : Cert.Nerf.Mat 256 256} {y4 z4 : Cert.Nerf.Row 256} {y5 z5 : Cert.Nerf.Mat 256 256} {y6 z6 : Cert.Nerf.Row 256} {y7 z7 : Cert.Nerf.Mat 256 256} {y8 z8 : Cert.Nerf.Row 256} {y9 z9 : Cert.Nerf.Mat 319 256} {y10 z10 : Cert.Nerf.Row 256} {y11 z11 : Cert.Nerf.Mat 256 256} {y12 z12 : Cert.Nerf.Row 256} {y13 z13 : Cert.Nerf.Mat 256 256} {y14 z14 : Cert.Nerf.Row 256} {y15 z15 : Cert.Nerf.Mat 256 256} {y16 z16 : Cert.Nerf.Row 256} {y17 z17 : Cert.Nerf.Mat 256 256} {y18 z18 : Cert.Nerf.Row 256} {y19 z19 : Cert.Nerf.Mat 286 128} {y20 z20 : Cert.Nerf.Row 128} {y21 z21 : Cert.Nerf.Mat 256 1} {y22 z22 : Cert.Nerf.Row 1} {y23 z23 : Cert.Nerf.Mat 128 3} {y24 z24 : Cert.Nerf.Row 3}
    (e0 : y0 = z0) (e1 : y1 = z1) (e2 : y2 = z2) (e3 : y3 = z3) (e4 : y4 = z4) (e5 : y5 = z5) (e6 : y6 = z6) (e7 : y7 = z7) (e8 : y8 = z8) (e9 : y9 = z9) (e10 : y10 = z10) (e11 : y11 = z11) (e12 : y12 = z12) (e13 : y13 = z13) (e14 : y14 = z14) (e15 : y15 = z15) (e16 : y16 = z16) (e17 : y17 = z17) (e18 : y18 = z18) (e19 : y19 = z19) (e20 : y20 = z20) (e21 : y21 = z21) (e22 : y22 = z22) (e23 : y23 = z23) (e24 : y24 = z24) :
    Cert.Nerf.G (n := 262144) y0 y1 y2 y3 y4 y5 y6 y7 y8 y9 y10 y11 y12 y13 y14 y15 y16 y17 y18 y19 y20 y21 y22 y23 y24 = Cert.Nerf.G (n := 262144) z0 z1 z2 z3 z4 z5 z6 z7 z8 z9 z10 z11 z12 z13 z14 z15 z16 z17 z18 z19 z20 z21 z22 z23 z24 := by
  subst e0 e1 e2 e3 e4 e5 e6 e7 e8 e9 e10 e11 e12 e13 e14 e15 e16 e17 e18 e19 e20 e21 e22 e23 e24
  rfl

/-- Both idealized programs end with the network `G` of the argument arrays, which agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.Nerf.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22, a23, a24⟩ := hagree c
  exact ((Cert.ReferenceIdeal.Read.val_main_v67_eq m' c).trans (Cert.Nerf.Ref.ref_eq _ _ _ _ _ _ _ _ _ _ _ _ _ _ _ _ _ _ _ _ _ _ _ _ _)).trans
    (G_congr a0 a1 a2 a3 a4 a5 a6 a7 a8 a9 a10 a11 a12 a13 a14 a15 a16 a17 a18 a19 a20 a21 a22 a23 a24)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
